-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S500000 : Shape := ⟨1, ![500000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S512x256 .f32) (main_arg14 : FVec F S512x256 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg13
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S512x256 .f32 := Host.absf main_arg14
  let main_cst_22 : FVec F S_ .f32 := constant S_ .f32 0x7F800000#32
  let main_v60 : FVec F S512x256 .f32 := broadcastInDim S512x256 ![] bcast_S_S512x256 main_cst_22
  let main_v61 : IVec S512x256 1 := cmpf .olt main_v59 main_v60
  let main_c_23 : IVec S_ 1 := constantI S_ 1 1#1
  let main_v62 : IVec S_ 1 := (fun x v => Host.reduce IntOp.andi x v reducesTo_S512x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg9 : FVec F S512 .f32) (main_arg10 : FVec F S512x256 .f32) (main_arg11 : FVec F S512x256 .f32) (main_arg12 : FVec F S256 .f32) (main_arg13 : FVec F S512x256 .f32) (main_arg14 : FVec F S512x256 .f32) (main_arg15 : FVec F S256 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg10
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S512x256 .f32 := Host.absf main_arg11
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_v48 main_v49 main_v50

def fn_part1 {F : FTy → Type} [FloatOps F] (main_arg6 : FVec F S512 .f32) (main_arg7 : FVec F S256x512 .f32) (main_arg8 : FVec F S256x512 .f32) (main_arg9 : FVec F S512 .f32) (main_arg10 : FVec F S512x256 .f32) (main_arg11 : FVec F S512x256 .f32) (main_arg12 : FVec F S256 .f32) (main_arg13 : FVec F S512x256 .f32) (main_arg14 : FVec F S512x256 .f32) (main_arg15 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256x512 .f32 := Host.absf main_arg8
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x256 .f32) (main_arg1 : FVec F S50000x256 .f32) (main_arg2 : IVec S500000 32) (main_arg3 : IVec S500000 32) (main_arg4 : FVec F S256x512 .f32) (main_arg5 : FVec F S256x512 .f32) (main_arg6 : FVec F S512 .f32) (main_arg7 : FVec F S256x512 .f32) (main_arg8 : FVec F S256x512 .f32) (main_arg9 : FVec F S512 .f32) (main_arg10 : FVec F S512x256 .f32) (main_arg11 : FVec F S512x256 .f32) (main_arg12 : FVec F S256 .f32) (main_arg13 : FVec F S512x256 .f32) (main_arg14 : FVec F S512x256 .f32) (main_arg15 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x256 : Shape := ⟨2, ![100000, 256]⟩
abbrev S50000x256 : Shape := ⟨2, ![50000, 256]⟩
abbrev S500000 : Shape := ⟨1, ![500000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩
abbrev S500000x1 : Shape := ⟨2, ![500000, 1]⟩
abbrev S500000x256 : Shape := ⟨2, ![500000, 256]⟩
abbrev S50000 : Shape := ⟨1, ![50000]⟩
abbrev S50000x1 : Shape := ⟨2, ![50000, 1]⟩
abbrev S50000x512 : Shape := ⟨2, ![50000, 512]⟩
abbrev S2000x256 : Shape := ⟨2, ![2000, 256]⟩
abbrev S2000x512 : Shape := ⟨2, ![2000, 512]⟩
abbrev S1x512 : Shape := ⟨2, ![1, 512]⟩
abbrev S100000 : Shape := ⟨1, ![100000]⟩
abbrev S100000x1 : Shape := ⟨2, ![100000, 1]⟩
abbrev S100000x512 : Shape := ⟨2, ![100000, 512]⟩
abbrev S500000x512 : Shape := ⟨2, ![500000, 512]⟩
abbrev S1x256 : Shape := ⟨2, ![1, 256]⟩

abbrev nBuf : Space → Nat
  | .hbm => 128
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S500000, .i32⟩
  | .hbm, ⟨3, _⟩ => ⟨S500000, .i32⟩
  | .hbm, ⟨4, _⟩ => ⟨S256x512, .f32⟩
  | .hbm, ⟨5, _⟩ => ⟨S256x512, .f32⟩
  | .hbm, ⟨6, _⟩ => ⟨S512, .f32⟩
  | .hbm, ⟨7, _⟩ => ⟨S256x512, .f32⟩
  | .hbm, ⟨8, _⟩ => ⟨S256x512, .f32⟩
  | .hbm, ⟨9, _⟩ => ⟨S512, .f32⟩
  | .hbm, ⟨10, _⟩ => ⟨S512x256, .f32⟩
  | .hbm, ⟨11, _⟩ => ⟨S512x256, .f32⟩
  | .hbm, ⟨12, _⟩ => ⟨S256, .f32⟩
  | .hbm, ⟨13, _⟩ => ⟨S512x256, .f32⟩
  | .hbm, ⟨14, _⟩ => ⟨S512x256, .f32⟩
  | .hbm, ⟨15, _⟩ => ⟨S256, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x256, .f32⟩
  | .hbm, ⟨25, _⟩ => ⟨S_, .f32⟩
  | .hbm, ⟨26, _⟩ => ⟨S50000x256, .f32⟩
  | .hbm, ⟨27, _⟩ => ⟨S500000x1, .i32⟩
  | .hbm, ⟨28, _⟩ => ⟨S50000x256, .f32⟩
  | .hbm, ⟨29, _⟩ => ⟨S_, .f32⟩
  | .hbm, ⟨30, _⟩ => ⟨S500000, .f32⟩
  | .hbm, ⟨31, _⟩ => ⟨S_, .f32⟩
  | .hbm, ⟨32, _⟩ => ⟨S50000, .f32⟩
  | .hbm, ⟨33, _⟩ => ⟨S500000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x256, .f32⟩
  | .hbm, ⟨40, _⟩ => ⟨S50000x256, .f32⟩
  | .hbm, ⟨41, _⟩ => ⟨S256x512, .bf16⟩
  | .hbm, ⟨42, _⟩ => ⟨S256x512, .bf16⟩
  | .hbm, ⟨43, _⟩ => ⟨S50000x512, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S500000x256, .f32⟩
  | .hbm, ⟨53, _⟩ => ⟨S_, .f32⟩
  | .hbm, ⟨54, _⟩ => ⟨S100000x256, .f32⟩
  | .hbm, ⟨55, _⟩ => ⟨S500000x1, .i32⟩
  | .hbm, ⟨56, _⟩ => ⟨S100000x256, .f32⟩
  | .hbm, ⟨57, _⟩ => ⟨S_, .f32⟩
  | .hbm, ⟨58, _⟩ => ⟨S500000, .f32⟩
  | .hbm, ⟨59, _⟩ => ⟨S_, .f32⟩
  | .hbm, ⟨60, _⟩ => ⟨S100000, .f32⟩
  | .hbm, ⟨61, _⟩ => ⟨S500000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x256, .f32⟩
  | .hbm, ⟨68, _⟩ => ⟨S100000x256, .f32⟩
  | .hbm, ⟨69, _⟩ => ⟨S256x512, .bf16⟩
  | .hbm, ⟨70, _⟩ => ⟨S256x512, .bf16⟩
  | .hbm, ⟨71, _⟩ => ⟨S100000x512, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x512, .f32⟩
  | .hbm, ⟨81, _⟩ => ⟨S_, .f32⟩
  | .hbm, ⟨82, _⟩ => ⟨S50000x512, .f32⟩
  | .hbm, ⟨83, _⟩ => ⟨S500000x1, .i32⟩
  | .hbm, ⟨84, _⟩ => ⟨S50000x512, .f32⟩
  | .hbm, ⟨85, _⟩ => ⟨S_, .f32⟩
  | .hbm, ⟨86, _⟩ => ⟨S500000, .f32⟩
  | .hbm, ⟨87, _⟩ => ⟨S_, .f32⟩
  | .hbm, ⟨88, _⟩ => ⟨S50000, .f32⟩
  | .hbm, ⟨89, _⟩ => ⟨S500000x1, .i32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x512, .f32⟩
  | .hbm, ⟨96, _⟩ => ⟨S50000x512, .f32⟩
  | .hbm, ⟨97, _⟩ => ⟨S512x256, .bf16⟩
  | .hbm, ⟨98, _⟩ => ⟨S512x256, .bf16⟩
  | .hbm, ⟨99, _⟩ => ⟨S50000x256, .f32⟩
  | .hbm, ⟨100, _⟩ => ⟨S_, .i32⟩
  | .hbm, ⟨101, _⟩ => ⟨S500000, .i32⟩
  | .hbm, ⟨102, _⟩ => ⟨S500000, .i1⟩
  | .hbm, ⟨103, _⟩ => ⟨S_, .i32⟩
  | .hbm, ⟨104, _⟩ => ⟨S500000, .i32⟩
  | .hbm, ⟨105, _⟩ => ⟨S500000, .i32⟩
  | .hbm, ⟨106, _⟩ => ⟨S500000, .i32⟩
  | .hbm, ⟨107, _⟩ => ⟨S500000x1, .i32⟩
  | .hbm, ⟨108, _⟩ => ⟨S500000x512, .f32⟩
  | .hbm, ⟨109, _⟩ => ⟨S_, .f32⟩
  | .hbm, ⟨110, _⟩ => ⟨S100000x512, .f32⟩
  | .hbm, ⟨111, _⟩ => ⟨S500000x1, .i32⟩
  | .hbm, ⟨112, _⟩ => ⟨S100000x512, .f32⟩
  | .hbm, ⟨113, _⟩ => ⟨S_, .f32⟩
  | .hbm, ⟨114, _⟩ => ⟨S500000, .f32⟩
  | .hbm, ⟨115, _⟩ => ⟨S_, .f32⟩
  | .hbm, ⟨116, _⟩ => ⟨S100000, .f32⟩
  | .hbm, ⟨117, _⟩ => ⟨S500000x1, .i32⟩
  | .hbm, ⟨118, _⟩ => ⟨S100000, .f32⟩
  | .hbm, ⟨119, _⟩ => ⟨S_, .f32⟩
  | .hbm, ⟨120, _⟩ => ⟨S100000, .f32⟩
  | .hbm, ⟨121, _⟩ => ⟨S100000, .f32⟩
  | .hbm, ⟨122, _⟩ => ⟨S100000x1, .f32⟩
  | .hbm, ⟨123, _⟩ => ⟨S100000x512, .f32⟩
  | .hbm, ⟨124, _⟩ => ⟨S100000x512, .f32⟩
  | .hbm, ⟨125, _⟩ => ⟨S512x256, .bf16⟩
  | .hbm, ⟨126, _⟩ => ⟨S512x256, .bf16⟩
  | .hbm, ⟨127, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .bf16⟩
  | .local _ .vmem, ⟨5, _⟩ => ⟨S256x512, .bf16⟩
  | .local _ .vmem, ⟨6, _⟩ => ⟨S512, .f32⟩
  | .local _ .vmem, ⟨7, _⟩ => ⟨S2000x512, .f32⟩
  | .local _ .vmem, ⟨8, _⟩ => ⟨S2000x512, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x512, .bf16⟩
  | .local _ .vmem, ⟨14, _⟩ => ⟨S256x512, .bf16⟩
  | .local _ .vmem, ⟨15, _⟩ => ⟨S512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x256, .bf16⟩
  | .local _ .vmem, ⟨23, _⟩ => ⟨S512x256, .bf16⟩
  | .local _ .vmem, ⟨24, _⟩ => ⟨S256, .f32⟩
  | .local _ .vmem, ⟨25, _⟩ => ⟨S2000x256, .f32⟩
  | .local _ .vmem, ⟨26, _⟩ => ⟨S2000x256, .f32⟩
  | .local _ .vmem, ⟨27, _⟩ => ⟨S2000x512, .f32⟩
  | .local _ .vmem, ⟨28, _⟩ => ⟨S2000x512, .f32⟩
  | .local _ .vmem, ⟨29, _⟩ => ⟨S2000x512, .f32⟩
  | .local _ .vmem, ⟨30, _⟩ => ⟨S2000x512, .f32⟩
  | .local _ .vmem, ⟨31, _⟩ => ⟨S512x256, .bf16⟩
  | .local _ .vmem, ⟨32, _⟩ => ⟨S512x256, .bf16⟩
  | .local _ .vmem, ⟨33, _⟩ => ⟨S256, .f32⟩
  | .local _ .vmem, ⟨34, _⟩ => ⟨S2000x256, .f32⟩
  | .local _ .vmem, ⟨35, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_c_17 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_cst_20 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  bcast_S_S100000x512 : S_.BroadcastsInDim S100000x512 (![] : Fin 0 → Fin S100000x512.rank)
  bcast_S100000x1_S100000x512_0_1 : S100000x1.BroadcastsInDim S100000x512 (![0, 1] : Fin 2 → Fin S100000x512.rank)
  gather_S100000x256_S500000x1_S500000x256_1_0_n_n_0_1_1256_wf : GatherDims.WF S100000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S2000x256_S256x512_S2000x512_1_0_0_1_n_n_wf : DotDims.WF S2000x256 S256x512 S2000x512 [1] [0] [0] [1] [] []
  gather_S50000x256_S500000x1_S500000x256_1_0_n_n_0_1_1256_wf : GatherDims.WF S50000x256 S500000x1 S500000x256 [1] [0] [] [0] [] 1 ![1, 256]
  scatter_S100000x256_S500000x1_S500000x256_1_0_0_1_wf : ScatterDims.WF S100000x256 S500000x1 S500000x256 [1] [0] [0] 1
  scatter_S100000_S500000x1_S500000_n_0_0_1_wf : ScatterDims.WF S100000 S500000x1 S500000 [] [0] [0] 1
  gather_S100000x512_S500000x1_S500000x512_1_0_n_n_0_1_1512_wf : GatherDims.WF S100000x512 S500000x1 S500000x512 [1] [0] [] [0] [] 1 ![1, 512]
  scatter_S50000x512_S500000x1_S500000x512_1_0_0_1_wf : ScatterDims.WF S50000x512 S500000x1 S500000x512 [1] [0] [0] 1
  dot_S2000x512_S512x256_S2000x256_1_0_0_1_n_n_wf : DotDims.WF S2000x512 S512x256 S2000x256 [1] [0] [0] [1] [] []
  gather_S50000x512_S500000x1_S500000x512_1_0_n_n_0_1_1512_wf : GatherDims.WF S50000x512 S500000x1 S500000x512 [1] [0] [] [0] [] 1 ![1, 512]
  scatter_S100000x512_S500000x1_S500000x512_1_0_0_1_wf : ScatterDims.WF S100000x512 S500000x1 S500000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .bf16 = 32 ∨ (Rect.block (s := S256x512) S256x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S100000x512.size a
  hwx1_5 : ∀ i : grid1.Coords, EltTy.bits .f32 = 32 ∨ (Rect.block (s := S100000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S50000x512.size a
  hwx2_1 : ∀ i : grid2.Coords, EltTy.bits .f32 = 32 ∨ (Rect.block (s := S50000x512) S2000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .bf16 = 32 ∨ (Rect.block (s := S512x256) S512x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x256.size a
  hwx2_3 : ∀ i : grid2.Coords, EltTy.bits .bf16 = 32 ∨ (Rect.block (s := S512x256) S512x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S100000x512.size a
  hwx3_0 : ∀ i : grid3.Coords, EltTy.bits .f32 = 32 ∨ (Rect.block (s := S100000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x512.size a ≤ S100000x512.size a
  hwx3_1 : ∀ i : grid3.Coords, EltTy.bits .f32 = 32 ∨ (Rect.block (s := S100000x512) S2000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S512x256.size a
  hwx3_2 : ∀ i : grid3.Coords, EltTy.bits .bf16 = 32 ∨ (Rect.block (s := S512x256) S512x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S512x256.size a
  hwx3_3 : ∀ i : grid3.Coords, EltTy.bits .bf16 = 32 ∨ (Rect.block (s := S512x256) S512x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S100000x256.size a
  hwx3_5 : ∀ i : grid3.Coords, EltTy.bits .f32 = 32 ∨ (Rect.block (s := S100000x256) S2000x256.size (cc3_transform_5 i) (hinb3_5 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x512_S500000x1_S500000x512_1_0_n_n_0_1_1512 : GatherDims S100000x512 S500000x1 S500000x512 where
  offsetDims := [1]
  collapsedSliceDims := [0]
  operandBatchingDims := []
  startIndicesBatchingDims := []
  startIndexMap := [0]
  indexVectorDim := 1
  sliceSizes := ![1, 512]
  wf := gather_S100000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S100000x512_S500000x1_S500000x512_1_0_0_1 : ScatterDims S100000x512 S500000x1 S500000x512 where
  updateWindowDims := [1]
  insertedWindowDims := [0]
  scatterDimsToOperandDims := [0]
  indexVectorDim := 1
  wf := scatter_S100000x512_S500000x1_S500000x512_1_0_0_1_wf

abbrev win0_0 : Pipeline.Window sig grid0 :=
  Pipeline.Window.ofSpec (Memref.whole main_v18) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S512x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S512x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S512x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S500000 : Shape := ⟨1, ![500000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩
abbrev S500000x1 : Shape := ⟨2, ![500000, 1]⟩
abbrev S500000x256 : Shape := ⟨2, ![500000, 256]⟩
abbrev S50000 : Shape := ⟨1, ![50000]⟩
abbrev S50000x1 : Shape := ⟨2, ![50000, 1]⟩
abbrev S50000x512 : Shape := ⟨2, ![50000, 512]⟩
abbrev S1x512 : Shape := ⟨2, ![1, 512]⟩
abbrev S100000 : Shape := ⟨1, ![100000]⟩
abbrev S100000x1 : Shape := ⟨2, ![100000, 1]⟩
abbrev S100000x512 : Shape := ⟨2, ![100000, 512]⟩
abbrev S500000x512 : Shape := ⟨2, ![500000, 512]⟩
abbrev S1x256 : Shape := ⟨2, ![1, 256]⟩

abbrev nBuf : Space → Nat
  | .hbm => 152
  | .vmem => 0
  | .smem => 0
  | _ => 0

abbrev hbmTy0_0 (i : Nat) : BufTy := match i % 128 with
  | 0 => ⟨S100000x256, .f32⟩
  | 1 => ⟨S50000x256, .f32⟩
  | 2 => ⟨S500000, .i32⟩
  | 3 => ⟨S500000, .i32⟩
  | 4 => ⟨S256x512, .f32⟩
  | 5 => ⟨S256x512, .f32⟩
  | 6 => ⟨S512, .f32⟩
  | 7 => ⟨S256x512, .f32⟩
  | 8 => ⟨S256x512, .f32⟩
  | 9 => ⟨S512, .f32⟩
  | 10 => ⟨S512x256, .f32⟩
  | 11 => ⟨S512x256, .f32⟩
  | 12 => ⟨S256, .f32⟩
  | 13 => ⟨S512x256, .f32⟩
  | 14 => ⟨S512x256, .f32⟩
  | 15 => ⟨S256, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x256, .f32⟩
  | 25 => ⟨S_, .f32⟩
  | 26 => ⟨S50000x256, .f32⟩
  | 27 => ⟨S500000x1, .i32⟩
  | 28 => ⟨S50000x256, .f32⟩
  | 29 => ⟨S_, .f32⟩
  | 30 => ⟨S500000, .f32⟩
  | 31 => ⟨S_, .f32⟩
  | 32 => ⟨S50000, .f32⟩
  | 33 => ⟨S500000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x256, .f32⟩
  | 40 => ⟨S50000x256, .f32⟩
  | 41 => ⟨S50000x512, .f32⟩
  | 42 => ⟨S1x512, .f32⟩
  | 43 => ⟨S50000x512, .f32⟩
  | 44 => ⟨S50000x512, .f32⟩
  | 45 => ⟨S50000x512, .f32⟩
  | 46 => ⟨S50000x512, .f32⟩
  | 47 => ⟨S_, .f32⟩
  | 48 => ⟨S50000x512, .f32⟩
  | 49 => ⟨S50000x512, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x256, .f32⟩
  | 59 => ⟨S_, .f32⟩
  | 60 => ⟨S100000x256, .f32⟩
  | 61 => ⟨S500000x1, .i32⟩
  | 62 => ⟨S100000x256, .f32⟩
  | 63 => ⟨S_, .f32⟩
  | 64 => ⟨S500000, .f32⟩
  | 65 => ⟨S_, .f32⟩
  | 66 => ⟨S100000, .f32⟩
  | 67 => ⟨S500000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x256, .f32⟩
  | 74 => ⟨S100000x256, .f32⟩
  | 75 => ⟨S100000x512, .f32⟩
  | 76 => ⟨S1x512, .f32⟩
  | 77 => ⟨S100000x512, .f32⟩
  | 78 => ⟨S100000x512, .f32⟩
  | 79 => ⟨S100000x512, .f32⟩
  | 80 => ⟨S100000x512, .f32⟩
  | 81 => ⟨S_, .f32⟩
  | 82 => ⟨S100000x512, .f32⟩
  | 83 => ⟨S100000x512, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x512, .f32⟩
  | 93 => ⟨S_, .f32⟩
  | 94 => ⟨S50000x512, .f32⟩
  | 95 => ⟨S500000x1, .i32⟩
  | 96 => ⟨S50000x512, .f32⟩
  | 97 => ⟨S_, .f32⟩
  | 98 => ⟨S500000, .f32⟩
  | 99 => ⟨S_, .f32⟩
  | 100 => ⟨S50000, .f32⟩
  | 101 => ⟨S500000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x512, .f32⟩
  | 108 => ⟨S50000x512, .f32⟩
  | 109 => ⟨S50000x256, .f32⟩
  | 110 => ⟨S1x256, .f32⟩
  | 111 => ⟨S50000x256, .f32⟩
  | 112 => ⟨S50000x256, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x512, .f32⟩
  | 127 => ⟨S_, .f32⟩
  | _ => ⟨S100000x256, .f32⟩

abbrev hbmTy0_1 (i : Nat) : BufTy := match i % 128 with
  | 0 => ⟨S100000x512, .f32⟩
  | 1 => ⟨S500000x1, .i32⟩
  | 2 => ⟨S100000x512, .f32⟩
  | 3 => ⟨S_, .f32⟩
  | 4 => ⟨S500000, .f32⟩
  | 5 => ⟨S_, .f32⟩
  | 6 => ⟨S100000, .f32⟩
  | 7 => ⟨S500000x1, .i32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x512, .f32⟩
  | 14 => ⟨S100000x512, .f32⟩
  | 15 => ⟨S100000x256, .f32⟩
  | 16 => ⟨S1x256, .f32⟩
  | 17 => ⟨S100000x256, .f32⟩
  | 18 => ⟨S100000x256, .f32⟩
  | 19 => ⟨S100000x256, .f32⟩
  | 20 => ⟨S100000x256, .f32⟩
  | 21 => ⟨S_, .f32⟩
  | 22 => ⟨S100000x256, .f32⟩
  | 23 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call2_cst : Ref sig .tc := ⟨.hbm, 115, rfl⟩
abbrev main_call2_v0 : Ref sig .tc := ⟨.hbm, 116, rfl⟩
abbrev main_v77 : Ref sig .tc := ⟨.hbm, 117, rfl⟩
abbrev main_c_16 : Ref sig .tc := ⟨.hbm, 118, rfl⟩
abbrev main_v78 : Ref sig .tc := ⟨.hbm, 119, rfl⟩
abbrev main_v79 : Ref sig .tc := ⟨.hbm, 120, rfl⟩
abbrev main_c_17 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_19 : Ref sig .tc := ⟨.hbm, 131, rfl⟩
abbrev main_v88 : Ref sig .tc := ⟨.hbm, 132, rfl⟩
abbrev main_cst_20 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_21 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call3_cst : Ref sig .tc := ⟨.hbm, 149, rfl⟩
abbrev main_call3_v0 : Ref sig .tc := ⟨.hbm, 150, rfl⟩
abbrev main_v103 : Ref sig .tc := ⟨.hbm, 151, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S50000x1_S50000x512_0_1 : S50000x1.BroadcastsInDim S50000x512 (![0, 1] : Fin 2 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S100000x1_S100000x512_0_1 : S100000x1.BroadcastsInDim S100000x512 (![0, 1] : Fin 2 → Fin S100000x512.rank)
  bcast_S1x256_S100000x256_0_1 : S1x256.BroadcastsInDim S100000x256 (![0, 1] : Fin 2 → Fin S100000x256.rank)
  gather_S100000x256_S500000x1_S500000x256_1_0_n_n_0_1_1256_wf : GatherDims.WF S100000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x256_S256x512_S50000x512_1_0_0_1_n_n_wf : DotDims.WF S50000x256 S256x512 S50000x512 [1] [0] [0] [1] [] []
  gather_S50000x256_S500000x1_S500000x256_1_0_n_n_0_1_1256_wf : GatherDims.WF S50000x256 S500000x1 S500000x256 [1] [0] [] [0] [] 1 ![1, 256]
  scatter_S100000x256_S500000x1_S500000x256_1_0_0_1_wf : ScatterDims.WF S100000x256 S500000x1 S500000x256 [1] [0] [0] 1
  scatter_S100000_S500000x1_S500000_n_0_0_1_wf : ScatterDims.WF S100000 S500000x1 S500000 [] [0] [0] 1
  dot_S100000x256_S256x512_S100000x512_1_0_0_1_n_n_wf : DotDims.WF S100000x256 S256x512 S100000x512 [1] [0] [0] [1] [] []
  gather_S100000x512_S500000x1_S500000x512_1_0_n_n_0_1_1512_wf : GatherDims.WF S100000x512 S500000x1 S500000x512 [1] [0] [] [0] [] 1 ![1, 512]
  scatter_S50000x512_S500000x1_S500000x512_1_0_0_1_wf : ScatterDims.WF S50000x512 S500000x1 S500000x512 [1] [0] [0] 1
  dot_S50000x512_S512x256_S50000x256_1_0_0_1_n_n_wf : DotDims.WF S50000x512 S512x256 S50000x256 [1] [0] [0] [1] [] []
  gather_S50000x512_S500000x1_S500000x512_1_0_n_n_0_1_1512_wf : GatherDims.WF S50000x512 S500000x1 S500000x512 [1] [0] [] [0] [] 1 ![1, 512]
  scatter_S100000x512_S500000x1_S500000x512_1_0_0_1_wf : ScatterDims.WF S100000x512 S500000x1 S500000x512 [1] [0] [0] 1
  dot_S100000x512_S512x256_S100000x256_1_0_0_1_n_n_wf : DotDims.WF S100000x512 S512x256 S100000x256 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf
def gather_S100000x512_S500000x1_S500000x512_1_0_n_n_0_1_1512 : GatherDims S100000x512 S500000x1 S500000x512 where
  offsetDims := [1]
  collapsedSliceDims := [0]
  operandBatchingDims := []
  startIndicesBatchingDims := []
  startIndexMap := [0]
  indexVectorDim := 1
  sliceSizes := ![1, 512]
  wf := gather_S100000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S100000x512_S500000x1_S500000x512_1_0_0_1 : ScatterDims S100000x512 S500000x1 S500000x512 where
  updateWindowDims := [1]
  insertedWindowDims := [0]
  scatterDimsToOperandDims := [0]
  indexVectorDim := 1
  wf := scatter_S100000x512_S500000x1_S500000x512_1_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf

class Facts : Prop extends Facts₀ where

variable [Facts]
-- ==== Proof.KernelRun.lean ====
/-
  The tiled program's run with its two results named.

  The program is four tiled regions with stretches of host operations between them. Its run leaves every buffer that
  outlives a region at the contents obtained by folding the segments, in order, over the launch memory: a stretch of
  host operations rewrites the buffers it computes, a region rewrites its result array and leaves the rest. So each of
  the two results ends holding that fold read at the result's buffer, and every argument ends as launched.
-/
import proofs.«117407_j56272661512354_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the folded contents read at
    their buffers and every argument as launched. -/
theorem run : θ_run defs (onTc (τ := τ) (main (F := F))) ⟨m, fun _ => 0, ρ⟩ (fun r => ∀ c : Dev nD,
      r.2.mem ((c.tc : Thread nD τ).loc main_v87) = W8 m ρ c (Proc.devRef .tc main_v87)
      ∧ r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v87 (by decide)),
       h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Run

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.LayerLaw.lean ====
/-
  One layer of the network, entry by entry, on the extended reals.

  For a block of M destination rows, a neighbourhood mean `a` and the rows' own features `x` (both M x K), two weight
  matrices `wl`, `wr` (K x N) and a bias `b` (length N), the layer's entry (p, q) is

      max ( (sum_k a(p,k) * wl(k,q)  +  sum_k x(p,k) * wr(k,q))  +  b(q) ,  0 ).

  The tiled program computes it in this grouping (two products into zero accumulators, their sum, the bias, the clamp);
  the plain program adds the bias to the first product before the second product is added. The two groupings agree by
  commutativity and associativity of addition alone, which hold on all of the extended reals, so no finiteness is used.
  A change of float format is the identity here, so weights rounded to a shorter format enter as themselves.
-/
import Idealize.ShloMosaic.Lib.ValueIdx
import Idealize.ShloMosaic.Lib.ValueLayout
import Idealize.ShloMosaic.Lib.Pipeline.Value
import Idealize.ShloMosaic.PureOps.Ideal.Laws
import proofs.«117407_j56272661512354_1_alg».proof.Proof.LibPlainDot
import proofs.«117407_j56272661512354_1_alg».proof.Proof.LibRowBroadcast

noncomputable section

namespace Cert.SageLayer

open Idealize.ShloMosaic Idealize.ShloMosaic.ValueIdx

variable {M K N : Nat}

/-- Entry (p, q) of the layer: the clamped sum of the two products and the bias. -/
def cell (a x : (⟨2, ![M, K]⟩ : Shape).Idx → EReal) (wl wr : (⟨2, ![K, N]⟩ : Shape).Idx → EReal)
    (b : (⟨1, ![N]⟩ : Shape).Idx → EReal) (p : Fin M) (q : Fin N) : EReal :=
  max (((∑ k : Fin K, a (ix2 p k) * wl (ix2 k q)) + (∑ k : Fin K, x (ix2 p k) * wr (ix2 k q))) + b (ix1 q))
    (Ideal.ofBits .f32 0x00000000#32)

/-- The layer as a whole M x N array. -/
def layer (a x : (⟨2, ![M, K]⟩ : Shape).Idx → EReal) (wl wr : (⟨2, ![K, N]⟩ : Shape).Idx → EReal)
    (b : (⟨1, ![N]⟩ : Shape).Idx → EReal) : (⟨2, ![M, N]⟩ : Shape).Idx → EReal :=
  fun j => cell a x wl wr b (j 0) (j 1)

theorem layer_ix2 (a x : (⟨2, ![M, K]⟩ : Shape).Idx → EReal) (wl wr : (⟨2, ![K, N]⟩ : Shape).Idx → EReal)
    (b : (⟨1, ![N]⟩ : Shape).Idx → EReal) (p : Fin M) (q : Fin N) :
    layer a x wl wr b (ix2 p q) = cell a x wl wr b p q := rfl

/-- An entry depends only on row p of the two M x K operands, column q of the two weight matrices and entry q of the
    bias: operands that agree there give the same entry, whatever their extents in the row direction. -/
theorem cell_congr {T : Nat}
    (a' x' : (⟨2, ![T, K]⟩ : Shape).Idx → EReal) (wl' wr' : (⟨2, ![K, N]⟩ : Shape).Idx → EReal) (b' : (⟨1, ![N]⟩ : Shape).Idx → EReal)
    (a x : (⟨2, ![M, K]⟩ : Shape).Idx → EReal) (wl wr : (⟨2, ![K, N]⟩ : Shape).Idx → EReal) (b : (⟨1, ![N]⟩ : Shape).Idx → EReal)
    (p : Fin T) (q : Fin N) (P : Fin M) (Q : Fin N)
    (h0 : ∀ k : Fin K, a' (ix2 p k) = a (ix2 P k)) (h1 : ∀ k : Fin K, x' (ix2 p k) = x (ix2 P k))
    (h2 : ∀ k : Fin K, wl' (ix2 k q) = wl (ix2 k Q)) (h3 : ∀ k : Fin K, wr' (ix2 k q) = wr (ix2 k Q))
    (h4 : b' (ix1 q) = b (ix1 Q)) :
    cell a' x' wl' wr' b' p q = cell a x wl wr b P Q := by
  unfold cell
  simp only [h0, h1, h2, h3, h4]

/-- Weights rounded to a shorter float format enter the layer as themselves: the rounding is the identity on the
    extended reals. -/
theorem layer_truncf (a x : (⟨2, ![M, K]⟩ : Shape).Idx → EReal)
    (wl wr : FVec Ideal ⟨2, ![K, N]⟩ .f32) (b : (⟨1, ![N]⟩ : Shape).Idx → EReal) (h : FTy.bf16.bits < FTy.f32.bits) :
    layer a x (truncf .bf16 wl h) (truncf .bf16 wr h) b = layer a x wl wr b := rfl

section Products

variable (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hrc hln hrn hlb hrb hr hs in
/-- The tiled program's arithmetic on one block of rows IS the layer of the block's operands: both row operands
    rounded to the short format and multiplied into zero accumulators, the two products added, the bias (made one row
    and repeated down the rows) added, the result clamped below by zero. -/
theorem body_core (y0 y1 : FVec Ideal ⟨2, ![M, K]⟩ .f32) (y2 y3 : FVec Ideal ⟨2, ![K, N]⟩ .bf16) (x4 : FVec Ideal ⟨1, ![N]⟩ .f32)
    (hb : FTy.bf16.bits < FTy.f32.bits) (c3 : (⟨1, ![N]⟩ : Shape).ShapeCasts ⟨2, ![1, N]⟩)
    (bc : (⟨2, ![1, N]⟩ : Shape).Broadcasts ⟨2, ![M, N]⟩) :
    maximumf (addf (addf
        (FloatOps.matmul D none (truncf .bf16 y0 hb) y2 (constant (F := Ideal) ⟨2, ![M, N]⟩ .f32 0x00000000#32))
        (FloatOps.matmul D none (truncf .bf16 y1 hb) y3 (constant (F := Ideal) ⟨2, ![M, N]⟩ .f32 0x00000000#32)))
        (broadcastTo ⟨2, ![M, N]⟩ (shapeCast ⟨2, ![1, N]⟩ x4 c3) bc))
      (broadcast ⟨2, ![M, N]⟩ (Scalar.ofBits (F := Ideal) .f32 0x00000000#32))
    = layer y0 y1 y2 y3 x4 := by
  funext j
  obtain ⟨p, q, rfl⟩ : ∃ (p : Fin M) (q : Fin N), j = ix2 p q := ⟨j 0, j 1, eq_ix2 j⟩
  rw [layer_ix2, maximumf_apply, addf_apply, addf_apply, broadcast_apply,
    PlainDot.matmul_zero_apply D hlc hrc hln hrn hlb hrb hr hs none _ _ p q,
    PlainDot.matmul_zero_apply D hlc hrc hln hrn hlb hrb hr hs none _ _ p q,
    broadcastTo_1b_ab_apply, shapeCast_a_1a_apply]
  rfl

include hlc hrc hln hrn hlb hrb hr hs in
/-- The same with the first row operand and both weight operands passed through a reshape to their own shape (the
    identity), as the first two regions' bodies spell it. -/
theorem body_eq (x0 x1 : FVec Ideal ⟨2, ![M, K]⟩ .f32) (x2 x3 : FVec Ideal ⟨2, ![K, N]⟩ .bf16) (x4 : FVec Ideal ⟨1, ![N]⟩ .f32)
    (c1 : (⟨2, ![M, K]⟩ : Shape).ShapeCasts ⟨2, ![M, K]⟩) (c2 : (⟨2, ![K, N]⟩ : Shape).ShapeCasts ⟨2, ![K, N]⟩)
    (hb : FTy.bf16.bits < FTy.f32.bits) (c3 : (⟨1, ![N]⟩ : Shape).ShapeCasts ⟨2, ![1, N]⟩)
    (bc : (⟨2, ![1, N]⟩ : Shape).Broadcasts ⟨2, ![M, N]⟩) :
    maximumf (addf (addf
        (FloatOps.matmul D none (truncf .bf16 (shapeCast ⟨2, ![M, K]⟩ x0 c1) hb) (shapeCast ⟨2, ![K, N]⟩ x2 c2) (constant (F := Ideal) ⟨2, ![M, N]⟩ .f32 0x00000000#32))
        (FloatOps.matmul D none (truncf .bf16 x1 hb) (shapeCast ⟨2, ![K, N]⟩ x3 c2) (constant (F := Ideal) ⟨2, ![M, N]⟩ .f32 0x00000000#32)))
        (broadcastTo ⟨2, ![M, N]⟩ (shapeCast ⟨2, ![1, N]⟩ x4 c3) bc))
      (broadcast ⟨2, ![M, N]⟩ (Scalar.ofBits (F := Ideal) .f32 0x00000000#32))
    = layer x0 x1 x2 x3 x4 := by
  rw [shapeCast_self, shapeCast_self, shapeCast_self]
  exact body_core D hlc hrc hln hrn hlb hrb hr hs x0 x1 x2 x3 x4 hb c3 bc

include hlc hrc hln hrn hlb hrb hr hs in
/-- The same with both row operands and both weight operands passed through a reshape to their own shape, as the last
    two regions' bodies spell it. -/
theorem body_eq' (x0 x1 : FVec Ideal ⟨2, ![M, K]⟩ .f32) (x2 x3 : FVec Ideal ⟨2, ![K, N]⟩ .bf16) (x4 : FVec Ideal ⟨1, ![N]⟩ .f32)
    (c1 : (⟨2, ![M, K]⟩ : Shape).ShapeCasts ⟨2, ![M, K]⟩) (c2 : (⟨2, ![K, N]⟩ : Shape).ShapeCasts ⟨2, ![K, N]⟩)
    (hb : FTy.bf16.bits < FTy.f32.bits) (c3 : (⟨1, ![N]⟩ : Shape).ShapeCasts ⟨2, ![1, N]⟩)
    (bc : (⟨2, ![1, N]⟩ : Shape).Broadcasts ⟨2, ![M, N]⟩) :
    maximumf (addf (addf
        (FloatOps.matmul D none (truncf .bf16 (shapeCast ⟨2, ![M, K]⟩ x0 c1) hb) (shapeCast ⟨2, ![K, N]⟩ x2 c2) (constant (F := Ideal) ⟨2, ![M, N]⟩ .f32 0x00000000#32))
        (FloatOps.matmul D none (truncf .bf16 (shapeCast ⟨2, ![M, K]⟩ x1 c1) hb) (shapeCast ⟨2, ![K, N]⟩ x3 c2) (constant (F := Ideal) ⟨2, ![M, N]⟩ .f32 0x00000000#32)))
        (broadcastTo ⟨2, ![M, N]⟩ (shapeCast ⟨2, ![1, N]⟩ x4 c3) bc))
      (broadcast ⟨2, ![M, N]⟩ (Scalar.ofBits (F := Ideal) .f32 0x00000000#32))
    = layer x0 x1 x2 x3 x4 := by
  rw [shapeCast_self, shapeCast_self, shapeCast_self, shapeCast_self]
  exact body_core D hlc hrc hln hrn hlb hrb hr hs x0 x1 x2 x3 x4 hb c3 bc

include hlc hrc hln hrn hlb hrb hr hs in
/-- The plain program's arithmetic on the whole arrays IS the layer too: the first product, the bias (made one row
    and repeated down the rows) added to it, the second product added, the result clamped below by zero. Only the order
    in which the three summands are added differs from the tiled program's. -/
theorem host_eq (a x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral D none a wl)
        (broadcastInDim ⟨2, ![M, N]⟩ ![0, 1] h2 (broadcastInDim ⟨2, ![1, N]⟩ ![1] h1 b)))
        (Host.dotGeneral D none x wr))
      (broadcastInDim ⟨2, ![M, N]⟩ ![] h0 (constant (F := Ideal) ⟨0, ![]⟩ .f32 0x00000000#32))
    = layer a x wl wr b := by
  funext j
  obtain ⟨p, q, rfl⟩ : ∃ (p : Fin M) (q : Fin N), j = ix2 p q := ⟨j 0, j 1, eq_ix2 j⟩
  rw [layer_ix2]
  simp only [Host.dotGeneral]
  rw [maximumf_apply, addf_apply, addf_apply,
    PlainDot.dotGeneral_apply D hlc hrc hln hrn hlb hrb hr hs none _ _ _ p q,
    PlainDot.dotGeneral_apply D hlc hrc hln hrn hlb hrb hr hs none _ _ _ p q,
    RowBroadcast.rowsOf_apply b h1 h2 p q,
    broadcastInDim_apply ![] h0 _ (ix2 p q) ix0 (fun e => e.elim0)]
  unfold cell
  rw [add_right_comm]
  rfl

end Products

end Cert.SageLayer

end
-- ==== Proof.Region0.lean ====
/-
  Region 0 of the tiled program, read as one whole-array function.

  The region walks the 50000 destination rows in blocks of 2000. At block t it reads rows 2000 t .. 2000 t + 1999 of the
  two 50000 x 256 row operands, the whole of both 256 x 512 weight matrices and the whole bias, and writes rows
  2000 t .. 2000 t + 1999 of the 50000 x 512 result. An entry of the layer depends only on its own row of the row
  operands, so what block t writes back is the restriction to its rows of the layer of the WHOLE operands; the
  25 blocks cover every row, so the result array ends holding the layer of the arrays the region found.
-/
import proofs.«117407_j56272661512354_1_alg».proof.Proof.Gen.KernelIdeal.Frame
import proofs.«117407_j56272661512354_1_alg».proof.Proof.LayerLaw
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The body's arithmetic on one block is the layer of the block's operands. -/
theorem body_layer (x0 x1 : Vec Ideal S2000x256 .f32) (x2 x3 : Vec Ideal S256x512 .bf16) (x4 : Vec Ideal S512 .f32) :
    k0_pay1 (F := Ideal) x0 x1 x2 x3 x4 = SageLayer.layer (M := 2000) (K := 256) (N := 512) x0 x1 x2 x3 x4 := by
  unfold k0_pay1
  exact SageLayer.body_eq dot_S2000x256_S256x512_S2000x512_1_0_0_1_n_n rfl rfl rfl rfl rfl rfl rfl rfl x0 x1 x2 x3 x4 _ _ _ _ _

/-- The block index maps over the grid: the row operands and the result move with the block number along the rows and
    sit at column block 0; the weights and the bias stay at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

set_option maxHeartbeats 2000000 in
/-- What block t writes back is block t of the layer of the whole arrays. -/
theorem flushed_layer (c : Dev nD) (t : Fin cfg0.N) :
    (dat0 V c).flushed 5 t = ((cfg0.win 5).blk t).view.read (Elt Ideal) (SageLayer.layer (M := 50000) (K := 256) (N := 512) (V c main_v18) (V c main_arg1) (V c main_v19) (V c main_v20) (V c main_arg6)) := by
  show (cfg0.win 5).cut (grid0.coords t) ((dat0 V c).after 5 t) = _
  rw [after0_5]
  unfold out0_5
  rw [View.canon_unit_zero zeros2]
  simp only [View.ld_unit_zero (S := S2000x256) zeros2, View.ld_unit_zero (S := S256x512) zeros2, View.ld_unit_zero (S := S512) zeros1]
  rw [body_layer]
  obtain ⟨e00, e01, e10, e11, e20, e21, e30, e31, e40, e50, e51⟩ := block_indices t
  funext j
  obtain ⟨p, q, rfl⟩ : ∃ (p : Fin 2000) (q : Fin 512), j = ix2 p q := ⟨j 0, j 1, eq_ix2 j⟩
  have hP : win0_5.index t (0 : Fin 2) * 2000 + 1 * p.val < 50000 := by have := t.isLt; have := p.isLt; have hN : cfg0.N = 25 := N_0; omega
  have hQ : win0_5.index t (1 : Fin 2) * 512 + 1 * q.val < 512 := by have := q.isLt; omega
  have hemb : ((cfg0.win 5).blk t).view.emb (ix2 p q) = ix2 (⟨_, hP⟩ : Fin 50000) (⟨_, hQ⟩ : Fin 512) :=
    funext fun a => Fin.ext (by match a with | ⟨0, _⟩ => rfl | ⟨1, _⟩ => rfl)
  show SageLayer.layer (M := 2000) (K := 256) (N := 512) (iblk0 V c 0 t) (iblk0 V c 1 t) (iblk0 V c 2 t) (iblk0 V c 3 t) (iblk0 V c 4 t) (ix2 p q)
    = (SageLayer.layer (M := 50000) (K := 256) (N := 512) (V c main_v18) (V c main_arg1) (V c main_v19) (V c main_v20) (V c main_arg6)) (((cfg0.win 5).blk t).view.emb (ix2 p q))
  rw [hemb, SageLayer.layer_ix2, SageLayer.layer_ix2]
  refine SageLayer.cell_congr (iblk0 V c 0 t) (iblk0 V c 1 t) (iblk0 V c 2 t) (iblk0 V c 3 t) (iblk0 V c 4 t)
    (V c main_v18) (V c main_arg1) (V c main_v19) (V c main_v20) (V c main_arg6) p q _ _ (fun k => ?_) (fun k => ?_) (fun k => ?_) (fun k => ?_) ?_
  · show V c main_v18 (((cfg0.win 0).blk t).view.emb (ix2 p k)) = V c main_v18 (ix2 _ k)
    refine congrArg (V c main_v18) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 256 + 1 * k.val = k.val; omega
  · show V c main_arg1 (((cfg0.win 1).blk t).view.emb (ix2 p k)) = V c main_arg1 (ix2 _ k)
    refine congrArg (V c main_arg1) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 256 + 1 * k.val = k.val; omega
  · show V c main_v19 (((cfg0.win 2).blk t).view.emb (ix2 k q)) = V c main_v19 (ix2 k _)
    refine congrArg (V c main_v19) (funext fun a => Fin.ext ?_)
    match a with
    | ⟨0, _⟩ => show win0_2.index t (0 : Fin 2) * 256 + 1 * k.val = k.val; omega
    | ⟨1, _⟩ => show win0_2.index t (1 : Fin 2) * 512 + 1 * q.val = win0_5.index t (1 : Fin 2) * 512 + 1 * q.val; omega
  · show V c main_v20 (((cfg0.win 3).blk t).view.emb (ix2 k q)) = V c main_v20 (ix2 k _)
    refine congrArg (V c main_v20) (funext fun a => Fin.ext ?_)
    match a with
    | ⟨0, _⟩ => show win0_3.index t (0 : Fin 2) * 256 + 1 * k.val = k.val; omega
    | ⟨1, _⟩ => show win0_3.index t (1 : Fin 2) * 512 + 1 * q.val = win0_5.index t (1 : Fin 2) * 512 + 1 * q.val; omega
  · show V c main_arg6 (((cfg0.win 4).blk t).view.emb (ix1 q)) = V c main_arg6 (ix1 _)
    refine congrArg (V c main_arg6) (funext fun a => Fin.ext ?_)
    match a with
    | ⟨0, _⟩ => show win0_4.index t (0 : Fin 1) * 512 + 1 * q.val = win0_5.index t (1 : Fin 2) * 512 + 1 * q.val; omega

/-- An index of the result array is in block t iff each coordinate is in the block's range on its axis. -/
theorem mem_block (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v21).slice (win0_5.rect t)).set ↔ _
  rw [View.set_slice_whole, Rect.mem_set_unit]
  exact Iff.rfl

/-- Every index of the result array lies in the block of its row's block number. -/
theorem covered (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 25 := N_0
  let t : Fin cfg0.N := ⟨(i 0).val / 2000, by omega⟩
  obtain ⟨e00, e01, e10, e11, e20, e21, e30, e31, e40, e50, e51⟩ := block_indices t
  have ht : t.val = (i 0).val / 2000 := rfl
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- THE RESULT ARRAY after the region: the layer of the arrays the region found. -/
theorem final (c : Dev nD) : (dat0 V c).arrAt 5 cfg0.N = SageLayer.layer (M := 50000) (K := 256) (N := 512) (V c main_v18) (V c main_arg1) (V c main_v19) (V c main_v20) (V c main_arg6) :=
  (dat0 V c).arrAt_eq_of_cover 5 (SageLayer.layer (M := 50000) (K := 256) (N := 512) (V c main_v18) (V c main_arg1) (V c main_v19) (V c main_v20) (V c main_arg6)) (fun t _ => flushed_layer V c t) covered

end Cert.KernelIdeal.Region0

end
-- ==== Proof.Region1.lean ====
/-
  Region 1 of the tiled program, read as one whole-array function.

  The region walks the 100000 destination rows in blocks of 2000. At block t it reads rows 2000 t .. 2000 t + 1999 of the
  two 100000 x 256 row operands, the whole of both 256 x 512 weight matrices and the whole bias, and writes rows
  2000 t .. 2000 t + 1999 of the 100000 x 512 result. An entry of the layer depends only on its own row of the row
  operands, so what block t writes back is the restriction to its rows of the layer of the WHOLE operands; the
  50 blocks cover every row, so the result array ends holding the layer of the arrays the region found.
-/
import proofs.«117407_j56272661512354_1_alg».proof.Proof.Gen.KernelIdeal.Frame
import proofs.«117407_j56272661512354_1_alg».proof.Proof.LayerLaw
import Idealize.ShloMosaic.Lib.Pipeline.Value

noncomputable section

namespace Cert.KernelIdeal.Region1

open Cert.KernelIdeal Cert.KernelIdeal.Gen Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The body's arithmetic on one block is the layer of the block's operands. -/
theorem body_layer (x0 x1 : Vec Ideal S2000x256 .f32) (x2 x3 : Vec Ideal S256x512 .bf16) (x4 : Vec Ideal S512 .f32) :
    k1_pay1 (F := Ideal) x0 x1 x2 x3 x4 = SageLayer.layer (M := 2000) (K := 256) (N := 512) x0 x1 x2 x3 x4 := by
  unfold k1_pay1
  exact SageLayer.body_eq dot_S2000x256_S256x512_S2000x512_1_0_0_1_n_n rfl rfl rfl rfl rfl rfl rfl rfl x0 x1 x2 x3 x4 _ _ _ _ _

/-- The block index maps over the grid: the row operands and the result move with the block number along the rows and
    sit at column block 0; the weights and the bias stay at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

set_option maxHeartbeats 2000000 in
/-- What block t writes back is block t of the layer of the whole arrays. -/
theorem flushed_layer (c : Dev nD) (t : Fin cfg1.N) :
    (dat1 V c).flushed 5 t = ((cfg1.win 5).blk t).view.read (Elt Ideal) (SageLayer.layer (M := 100000) (K := 256) (N := 512) (V c main_v40) (V c main_arg0) (V c main_v41) (V c main_v42) (V c main_arg9)) := by
  show (cfg1.win 5).cut (grid1.coords t) ((dat1 V c).after 5 t) = _
  rw [after1_5]
  unfold out1_5
  rw [View.canon_unit_zero zeros2]
  simp only [View.ld_unit_zero (S := S2000x256) zeros2, View.ld_unit_zero (S := S256x512) zeros2, View.ld_unit_zero (S := S512) zeros1]
  rw [body_layer]
  obtain ⟨e00, e01, e10, e11, e20, e21, e30, e31, e40, e50, e51⟩ := block_indices t
  funext j
  obtain ⟨p, q, rfl⟩ : ∃ (p : Fin 2000) (q : Fin 512), j = ix2 p q := ⟨j 0, j 1, eq_ix2 j⟩
  have hP : win1_5.index t (0 : Fin 2) * 2000 + 1 * p.val < 100000 := by have := t.isLt; have := p.isLt; have hN : cfg1.N = 50 := N_1; omega
  have hQ : win1_5.index t (1 : Fin 2) * 512 + 1 * q.val < 512 := by have := q.isLt; omega
  have hemb : ((cfg1.win 5).blk t).view.emb (ix2 p q) = ix2 (⟨_, hP⟩ : Fin 100000) (⟨_, hQ⟩ : Fin 512) :=
    funext fun a => Fin.ext (by match a with | ⟨0, _⟩ => rfl | ⟨1, _⟩ => rfl)
  show SageLayer.layer (M := 2000) (K := 256) (N := 512) (iblk1 V c 0 t) (iblk1 V c 1 t) (iblk1 V c 2 t) (iblk1 V c 3 t) (iblk1 V c 4 t) (ix2 p q)
    = (SageLayer.layer (M := 100000) (K := 256) (N := 512) (V c main_v40) (V c main_arg0) (V c main_v41) (V c main_v42) (V c main_arg9)) (((cfg1.win 5).blk t).view.emb (ix2 p q))
  rw [hemb, SageLayer.layer_ix2, SageLayer.layer_ix2]
  refine SageLayer.cell_congr (iblk1 V c 0 t) (iblk1 V c 1 t) (iblk1 V c 2 t) (iblk1 V c 3 t) (iblk1 V c 4 t)
    (V c main_v40) (V c main_arg0) (V c main_v41) (V c main_v42) (V c main_arg9) p q _ _ (fun k => ?_) (fun k => ?_) (fun k => ?_) (fun k => ?_) ?_
  · show V c main_v40 (((cfg1.win 0).blk t).view.emb (ix2 p k)) = V c main_v40 (ix2 _ k)
    refine congrArg (V c main_v40) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 256 + 1 * k.val = k.val; omega
  · show V c main_arg0 (((cfg1.win 1).blk t).view.emb (ix2 p k)) = V c main_arg0 (ix2 _ k)
    refine congrArg (V c main_arg0) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 256 + 1 * k.val = k.val; omega
  · show V c main_v41 (((cfg1.win 2).blk t).view.emb (ix2 k q)) = V c main_v41 (ix2 k _)
    refine congrArg (V c main_v41) (funext fun a => Fin.ext ?_)
    match a with
    | ⟨0, _⟩ => show win1_2.index t (0 : Fin 2) * 256 + 1 * k.val = k.val; omega
    | ⟨1, _⟩ => show win1_2.index t (1 : Fin 2) * 512 + 1 * q.val = win1_5.index t (1 : Fin 2) * 512 + 1 * q.val; omega
  · show V c main_v42 (((cfg1.win 3).blk t).view.emb (ix2 k q)) = V c main_v42 (ix2 k _)
    refine congrArg (V c main_v42) (funext fun a => Fin.ext ?_)
    match a with
    | ⟨0, _⟩ => show win1_3.index t (0 : Fin 2) * 256 + 1 * k.val = k.val; omega
    | ⟨1, _⟩ => show win1_3.index t (1 : Fin 2) * 512 + 1 * q.val = win1_5.index t (1 : Fin 2) * 512 + 1 * q.val; omega
  · show V c main_arg9 (((cfg1.win 4).blk t).view.emb (ix1 q)) = V c main_arg9 (ix1 _)
    refine congrArg (V c main_arg9) (funext fun a => Fin.ext ?_)
    match a with
    | ⟨0, _⟩ => show win1_4.index t (0 : Fin 1) * 512 + 1 * q.val = win1_5.index t (1 : Fin 2) * 512 + 1 * q.val; omega

/-- An index of the result array is in block t iff each coordinate is in the block's range on its axis. -/
theorem mem_block (t : Fin cfg1.N) (i : S100000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v43).slice (win1_5.rect t)).set ↔ _
  rw [View.set_slice_whole, Rect.mem_set_unit]
  exact Iff.rfl

/-- Every index of the result array lies in the block of its row's block number. -/
theorem covered (i : S100000x512.Idx) : ∃ t : Fin cfg1.N, (cfg1.win 5).flush t = true ∧ i ∈ ((cfg1.win 5).blk t).view.set := by
  have hi0 : (i 0).val < 100000 := (i 0).isLt
  have hi1 : (i 1).val < 512 := (i 1).isLt
  have hN : cfg1.N = 50 := N_1
  let t : Fin cfg1.N := ⟨(i 0).val / 2000, by omega⟩
  obtain ⟨e00, e01, e10, e11, e20, e21, e30, e31, e40, e50, e51⟩ := block_indices t
  have ht : t.val = (i 0).val / 2000 := rfl
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 512 ≤ (i 1).val ∧ (i 1).val < win1_5.index t (1 : Fin 2) * 512 + 512; omega

/-- THE RESULT ARRAY after the region: the layer of the arrays the region found. -/
theorem final (c : Dev nD) : (dat1 V c).arrAt 5 cfg1.N = SageLayer.layer (M := 100000) (K := 256) (N := 512) (V c main_v40) (V c main_arg0) (V c main_v41) (V c main_v42) (V c main_arg9) :=
  (dat1 V c).arrAt_eq_of_cover 5 (SageLayer.layer (M := 100000) (K := 256) (N := 512) (V c main_v40) (V c main_arg0) (V c main_v41) (V c main_v42) (V c main_arg9)) (fun t _ => flushed_layer V c t) covered

end Cert.KernelIdeal.Region1

end
-- ==== Proof.Region2.lean ====
/-
  Region 2 of the tiled program, read as one whole-array function.

  The region walks the 50000 destination rows in blocks of 2000. At block t it reads rows 2000 t .. 2000 t + 1999 of the
  two 50000 x 512 row operands, the whole of both 512 x 256 weight matrices and the whole bias, and writes rows
  2000 t .. 2000 t + 1999 of the 50000 x 256 result. An entry of the layer depends only on its own row of the row
  operands, so what block t writes back is the restriction to its rows of the layer of the WHOLE operands; the
  25 blocks cover every row, so the result array ends holding the layer of the arrays the region found.
-/
import proofs.«117407_j56272661512354_1_alg».proof.Proof.Gen.KernelIdeal.Frame
import proofs.«117407_j56272661512354_1_alg».proof.Proof.LayerLaw
import Idealize.ShloMosaic.Lib.Pipeline.Value

noncomputable section

namespace Cert.KernelIdeal.Region2

open Cert.KernelIdeal Cert.KernelIdeal.Gen Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The body's arithmetic on one block is the layer of the block's operands. -/
theorem body_layer (x0 x1 : Vec Ideal S2000x512 .f32) (x2 x3 : Vec Ideal S512x256 .bf16) (x4 : Vec Ideal S256 .f32) :
    k2_pay1 (F := Ideal) x0 x1 x2 x3 x4 = SageLayer.layer (M := 2000) (K := 512) (N := 256) x0 x1 x2 x3 x4 := by
  unfold k2_pay1
  exact SageLayer.body_eq' dot_S2000x512_S512x256_S2000x256_1_0_0_1_n_n rfl rfl rfl rfl rfl rfl rfl rfl x0 x1 x2 x3 x4 _ _ _ _ _

/-- The block index maps over the grid: the row operands and the result move with the block number along the rows and
    sit at column block 0; the weights and the bias stay at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

set_option maxHeartbeats 2000000 in
/-- What block t writes back is block t of the layer of the whole arrays. -/
theorem flushed_layer (c : Dev nD) (t : Fin cfg2.N) :
    (dat2 V c).flushed 5 t = ((cfg2.win 5).blk t).view.read (Elt Ideal) (SageLayer.layer (M := 50000) (K := 512) (N := 256) (V c main_v62) (V c main_v21) (V c main_v63) (V c main_v64) (V c main_arg12)) := by
  show (cfg2.win 5).cut (grid2.coords t) ((dat2 V c).after 5 t) = _
  rw [after2_5]
  unfold out2_5
  rw [View.canon_unit_zero zeros2]
  simp only [View.ld_unit_zero (S := S2000x512) zeros2, View.ld_unit_zero (S := S512x256) zeros2, View.ld_unit_zero (S := S256) zeros1]
  rw [body_layer]
  obtain ⟨e00, e01, e10, e11, e20, e21, e30, e31, e40, e50, e51⟩ := block_indices t
  funext j
  obtain ⟨p, q, rfl⟩ : ∃ (p : Fin 2000) (q : Fin 256), j = ix2 p q := ⟨j 0, j 1, eq_ix2 j⟩
  have hP : win2_5.index t (0 : Fin 2) * 2000 + 1 * p.val < 50000 := by have := t.isLt; have := p.isLt; have hN : cfg2.N = 25 := N_2; omega
  have hQ : win2_5.index t (1 : Fin 2) * 256 + 1 * q.val < 256 := by have := q.isLt; omega
  have hemb : ((cfg2.win 5).blk t).view.emb (ix2 p q) = ix2 (⟨_, hP⟩ : Fin 50000) (⟨_, hQ⟩ : Fin 256) :=
    funext fun a => Fin.ext (by match a with | ⟨0, _⟩ => rfl | ⟨1, _⟩ => rfl)
  show SageLayer.layer (M := 2000) (K := 512) (N := 256) (iblk2 V c 0 t) (iblk2 V c 1 t) (iblk2 V c 2 t) (iblk2 V c 3 t) (iblk2 V c 4 t) (ix2 p q)
    = (SageLayer.layer (M := 50000) (K := 512) (N := 256) (V c main_v62) (V c main_v21) (V c main_v63) (V c main_v64) (V c main_arg12)) (((cfg2.win 5).blk t).view.emb (ix2 p q))
  rw [hemb, SageLayer.layer_ix2, SageLayer.layer_ix2]
  refine SageLayer.cell_congr (iblk2 V c 0 t) (iblk2 V c 1 t) (iblk2 V c 2 t) (iblk2 V c 3 t) (iblk2 V c 4 t)
    (V c main_v62) (V c main_v21) (V c main_v63) (V c main_v64) (V c main_arg12) p q _ _ (fun k => ?_) (fun k => ?_) (fun k => ?_) (fun k => ?_) ?_
  · show V c main_v62 (((cfg2.win 0).blk t).view.emb (ix2 p k)) = V c main_v62 (ix2 _ k)
    refine congrArg (V c main_v62) (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 512 + 1 * k.val = k.val; omega
  · show V c main_v21 (((cfg2.win 1).blk t).view.emb (ix2 p k)) = V c main_v21 (ix2 _ k)
    refine congrArg (V c main_v21) (funext fun a => Fin.ext ?_)
    match a with
    | ⟨0, _⟩ => show win2_1.index t (0 : Fin 2) * 2000 + 1 * p.val = win2_5.index t (0 : Fin 2) * 2000 + 1 * p.val; omega
    | ⟨1, _⟩ => show win2_1.index t (1 : Fin 2) * 512 + 1 * k.val = k.val; omega
  · show V c main_v63 (((cfg2.win 2).blk t).view.emb (ix2 k q)) = V c main_v63 (ix2 k _)
    refine congrArg (V c main_v63) (funext fun a => Fin.ext ?_)
    match a with
    | ⟨0, _⟩ => show win2_2.index t (0 : Fin 2) * 512 + 1 * k.val = k.val; omega
    | ⟨1, _⟩ => show win2_2.index t (1 : Fin 2) * 256 + 1 * q.val = win2_5.index t (1 : Fin 2) * 256 + 1 * q.val; omega
  · show V c main_v64 (((cfg2.win 3).blk t).view.emb (ix2 k q)) = V c main_v64 (ix2 k _)
    refine congrArg (V c main_v64) (funext fun a => Fin.ext ?_)
    match a with
    | ⟨0, _⟩ => show win2_3.index t (0 : Fin 2) * 512 + 1 * k.val = k.val; omega
    | ⟨1, _⟩ => show win2_3.index t (1 : Fin 2) * 256 + 1 * q.val = win2_5.index t (1 : Fin 2) * 256 + 1 * q.val; omega
  · show V c main_arg12 (((cfg2.win 4).blk t).view.emb (ix1 q)) = V c main_arg12 (ix1 _)
    refine congrArg (V c main_arg12) (funext fun a => Fin.ext ?_)
    match a with
    | ⟨0, _⟩ => show win2_4.index t (0 : Fin 1) * 256 + 1 * q.val = win2_5.index t (1 : Fin 2) * 256 + 1 * q.val; omega

/-- An index of the result array is in block t iff each coordinate is in the block's range on its axis. -/
theorem mem_block (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v65).slice (win2_5.rect t)).set ↔ _
  rw [View.set_slice_whole, Rect.mem_set_unit]
  exact Iff.rfl

/-- Every index of the result array lies in the block of its row's block number. -/
theorem covered (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  let t : Fin cfg2.N := ⟨(i 0).val / 2000, by omega⟩
  obtain ⟨e00, e01, e10, e11, e20, e21, e30, e31, e40, e50, e51⟩ := block_indices t
  have ht : t.val = (i 0).val / 2000 := rfl
  refine ⟨t, flush2_5 t, ?_⟩
  rw [mem_block]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE RESULT ARRAY after the region: the layer of the arrays the region found. -/
theorem final (c : Dev nD) : (dat2 V c).arrAt 5 cfg2.N = SageLayer.layer (M := 50000) (K := 512) (N := 256) (V c main_v62) (V c main_v21) (V c main_v63) (V c main_v64) (V c main_arg12) :=
  (dat2 V c).arrAt_eq_of_cover 5 (SageLayer.layer (M := 50000) (K := 512) (N := 256) (V c main_v62) (V c main_v21) (V c main_v63) (V c main_v64) (V c main_arg12)) (fun t _ => flushed_layer V c t) covered

end Cert.KernelIdeal.Region2

end
-- ==== Proof.Region3.lean ====
/-
  Region 3 of the tiled program, read as one whole-array function.

  The region walks the 100000 destination rows in blocks of 2000. At block t it reads rows 2000 t .. 2000 t + 1999 of the
  two 100000 x 512 row operands, the whole of both 512 x 256 weight matrices and the whole bias, and writes rows
  2000 t .. 2000 t + 1999 of the 100000 x 256 result. An entry of the layer depends only on its own row of the row
  operands, so what block t writes back is the restriction to its rows of the layer of the WHOLE operands; the
  50 blocks cover every row, so the result array ends holding the layer of the arrays the region found.
-/
import proofs.«117407_j56272661512354_1_alg».proof.Proof.Gen.KernelIdeal.Frame
import proofs.«117407_j56272661512354_1_alg».proof.Proof.LayerLaw
import Idealize.ShloMosaic.Lib.Pipeline.Value

noncomputable section

namespace Cert.KernelIdeal.Region3

open Cert.KernelIdeal Cert.KernelIdeal.Gen Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The body's arithmetic on one block is the layer of the block's operands. -/
theorem body_layer (x0 x1 : Vec Ideal S2000x512 .f32) (x2 x3 : Vec Ideal S512x256 .bf16) (x4 : Vec Ideal S256 .f32) :
    k3_pay1 (F := Ideal) x0 x1 x2 x3 x4 = SageLayer.layer (M := 2000) (K := 512) (N := 256) x0 x1 x2 x3 x4 := by
  unfold k3_pay1
  exact SageLayer.body_eq' dot_S2000x512_S512x256_S2000x256_1_0_0_1_n_n rfl rfl rfl rfl rfl rfl rfl rfl x0 x1 x2 x3 x4 _ _ _ _ _

/-- The block index maps over the grid: the row operands and the result move with the block number along the rows and
    sit at column block 0; the weights and the bias stay at block 0. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

set_option maxHeartbeats 2000000 in
/-- What block t writes back is block t of the layer of the whole arrays. -/
theorem flushed_layer (c : Dev nD) (t : Fin cfg3.N) :
    (dat3 V c).flushed 5 t = ((cfg3.win 5).blk t).view.read (Elt Ideal) (SageLayer.layer (M := 100000) (K := 512) (N := 256) (V c main_v84) (V c main_v43) (V c main_v85) (V c main_v86) (V c main_arg15)) := by
  show (cfg3.win 5).cut (grid3.coords t) ((dat3 V c).after 5 t) = _
  rw [after3_5]
  unfold out3_5
  rw [View.canon_unit_zero zeros2]
  simp only [View.ld_unit_zero (S := S2000x512) zeros2, View.ld_unit_zero (S := S512x256) zeros2, View.ld_unit_zero (S := S256) zeros1]
  rw [body_layer]
  obtain ⟨e00, e01, e10, e11, e20, e21, e30, e31, e40, e50, e51⟩ := block_indices t
  funext j
  obtain ⟨p, q, rfl⟩ : ∃ (p : Fin 2000) (q : Fin 256), j = ix2 p q := ⟨j 0, j 1, eq_ix2 j⟩
  have hP : win3_5.index t (0 : Fin 2) * 2000 + 1 * p.val < 100000 := by have := t.isLt; have := p.isLt; have hN : cfg3.N = 50 := N_3; omega
  have hQ : win3_5.index t (1 : Fin 2) * 256 + 1 * q.val < 256 := by have := q.isLt; omega
  have hemb : ((cfg3.win 5).blk t).view.emb (ix2 p q) = ix2 (⟨_, hP⟩ : Fin 100000) (⟨_, hQ⟩ : Fin 256) :=
    funext fun a => Fin.ext (by match a with | ⟨0, _⟩ => rfl | ⟨1, _⟩ => rfl)
  show SageLayer.layer (M := 2000) (K := 512) (N := 256) (iblk3 V c 0 t) (iblk3 V c 1 t) (iblk3 V c 2 t) (iblk3 V c 3 t) (iblk3 V c 4 t) (ix2 p q)
    = (SageLayer.layer (M := 100000) (K := 512) (N := 256) (V c main_v84) (V c main_v43) (V c main_v85) (V c main_v86) (V c main_arg15)) (((cfg3.win 5).blk t).view.emb (ix2 p q))
  rw [hemb, SageLayer.layer_ix2, SageLayer.layer_ix2]
  refine SageLayer.cell_congr (iblk3 V c 0 t) (iblk3 V c 1 t) (iblk3 V c 2 t) (iblk3 V c 3 t) (iblk3 V c 4 t)
    (V c main_v84) (V c main_v43) (V c main_v85) (V c main_v86) (V c main_arg15) p q _ _ (fun k => ?_) (fun k => ?_) (fun k => ?_) (fun k => ?_) ?_
  · show V c main_v84 (((cfg3.win 0).blk t).view.emb (ix2 p k)) = V c main_v84 (ix2 _ k)
    refine congrArg (V c main_v84) (funext fun a => Fin.ext ?_)
    match a with
    | ⟨0, _⟩ => show win3_0.index t (0 : Fin 2) * 2000 + 1 * p.val = win3_5.index t (0 : Fin 2) * 2000 + 1 * p.val; omega
    | ⟨1, _⟩ => show win3_0.index t (1 : Fin 2) * 512 + 1 * k.val = k.val; omega
  · show V c main_v43 (((cfg3.win 1).blk t).view.emb (ix2 p k)) = V c main_v43 (ix2 _ k)
    refine congrArg (V c main_v43) (funext fun a => Fin.ext ?_)
    match a with
    | ⟨0, _⟩ => show win3_1.index t (0 : Fin 2) * 2000 + 1 * p.val = win3_5.index t (0 : Fin 2) * 2000 + 1 * p.val; omega
    | ⟨1, _⟩ => show win3_1.index t (1 : Fin 2) * 512 + 1 * k.val = k.val; omega
  · show V c main_v85 (((cfg3.win 2).blk t).view.emb (ix2 k q)) = V c main_v85 (ix2 k _)
    refine congrArg (V c main_v85) (funext fun a => Fin.ext ?_)
    match a with
    | ⟨0, _⟩ => show win3_2.index t (0 : Fin 2) * 512 + 1 * k.val = k.val; omega
    | ⟨1, _⟩ => show win3_2.index t (1 : Fin 2) * 256 + 1 * q.val = win3_5.index t (1 : Fin 2) * 256 + 1 * q.val; omega
  · show V c main_v86 (((cfg3.win 3).blk t).view.emb (ix2 k q)) = V c main_v86 (ix2 k _)
    refine congrArg (V c main_v86) (funext fun a => Fin.ext ?_)
    match a with
    | ⟨0, _⟩ => show win3_3.index t (0 : Fin 2) * 512 + 1 * k.val = k.val; omega
    | ⟨1, _⟩ => show win3_3.index t (1 : Fin 2) * 256 + 1 * q.val = win3_5.index t (1 : Fin 2) * 256 + 1 * q.val; omega
  · show V c main_arg15 (((cfg3.win 4).blk t).view.emb (ix1 q)) = V c main_arg15 (ix1 _)
    refine congrArg (V c main_arg15) (funext fun a => Fin.ext ?_)
    match a with
    | ⟨0, _⟩ => show win3_4.index t (0 : Fin 1) * 256 + 1 * q.val = win3_5.index t (1 : Fin 2) * 256 + 1 * q.val; omega

/-- An index of the result array is in block t iff each coordinate is in the block's range on its axis. -/
theorem mem_block (t : Fin cfg3.N) (i : S100000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v87).slice (win3_5.rect t)).set ↔ _
  rw [View.set_slice_whole, Rect.mem_set_unit]
  exact Iff.rfl

/-- Every index of the result array lies in the block of its row's block number. -/
theorem covered (i : S100000x256.Idx) : ∃ t : Fin cfg3.N, (cfg3.win 5).flush t = true ∧ i ∈ ((cfg3.win 5).blk t).view.set := by
  have hi0 : (i 0).val < 100000 := (i 0).isLt
  have hi1 : (i 1).val < 256 := (i 1).isLt
  have hN : cfg3.N = 50 := N_3
  let t : Fin cfg3.N := ⟨(i 0).val / 2000, by omega⟩
  obtain ⟨e00, e01, e10, e11, e20, e21, e30, e31, e40, e50, e51⟩ := block_indices t
  have ht : t.val = (i 0).val / 2000 := rfl
  refine ⟨t, flush3_5 t, ?_⟩
  rw [mem_block]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- THE RESULT ARRAY after the region: the layer of the arrays the region found. -/
theorem final (c : Dev nD) : (dat3 V c).arrAt 5 cfg3.N = SageLayer.layer (M := 100000) (K := 512) (N := 256) (V c main_v84) (V c main_v43) (V c main_v85) (V c main_v86) (V c main_arg15) :=
  (dat3 V c).arrAt_eq_of_cover 5 (SageLayer.layer (M := 100000) (K := 512) (N := 256) (V c main_v84) (V c main_v43) (V c main_v85) (V c main_v86) (V c main_arg15)) (fun t _ => flushed_layer V c t) covered

end Cert.KernelIdeal.Region3

end
-- ==== Proof.RefLayers.lean ====
/-
  The plain program's four layers, each as the layer function of its operands.

  The plain program computes a layer as: the product of the neighbourhood mean with the left weights, plus the bias
  repeated down the rows, plus the product of the rows' own features with the right weights, clamped below by zero.
  Each of the four layers (two node types, two depths) is that spelling at its own sizes, so each is the layer
  function of the mean stage, the own-feature array, the two weight matrices and the bias.
-/
import proofs.«117407_j56272661512354_1_alg».proof.Proof.Gen.ReferenceIdeal.Read
import proofs.«117407_j56272661512354_1_alg».proof.Proof.LayerLaw

noncomputable section

namespace Cert.ReferenceIdeal.Layers

open Cert.ReferenceIdeal Cert.ReferenceIdeal.Read Idealize.ShloMosaic

/-- Depth 1, business nodes: the mean over incoming user features, the business features. -/
theorem hbiz (x0 : (⟨S100000x256, .f32⟩ : BufTy).Contents (Elt Ideal)) (x1 : (⟨S50000x256, .f32⟩ : BufTy).Contents (Elt Ideal)) (x2 x3 : (⟨S500000, .i32⟩ : BufTy).Contents (Elt Ideal))
    (x4 x5 : (⟨S256x512, .f32⟩ : BufTy).Contents (Elt Ideal)) (x6 : (⟨S512, .f32⟩ : BufTy).Contents (Elt Ideal)) :
    val_main_v25 (F := Ideal) x0 x1 x2 x3 x4 x5 x6
      = SageLayer.layer (M := 50000) (K := 256) (N := 512) (val_main_v18 (F := Ideal) x0 x2 x3) x1 x4 x5 x6 := by
  unfold val_main_v25 val_main_v24 val_main_v23 val_main_v22 val_main_v21 val_main_v20 val_main_v19 val_main_call0_v0 val_main_call0_cst
  exact SageLayer.host_eq dot_S50000x256_S256x512_S50000x512_1_0_0_1_n_n rfl rfl rfl rfl rfl rfl rfl rfl _ _ _ _ _ _ _ _

/-- Depth 1, user nodes: the mean over incoming business features, the user features. -/
theorem huser (x0 : (⟨S100000x256, .f32⟩ : BufTy).Contents (Elt Ideal)) (x1 : (⟨S50000x256, .f32⟩ : BufTy).Contents (Elt Ideal)) (x2 x3 : (⟨S500000, .i32⟩ : BufTy).Contents (Elt Ideal))
    (x7 x8 : (⟨S256x512, .f32⟩ : BufTy).Contents (Elt Ideal)) (x9 : (⟨S512, .f32⟩ : BufTy).Contents (Elt Ideal)) :
    val_main_v51 (F := Ideal) x0 x1 x2 x3 x7 x8 x9
      = SageLayer.layer (M := 100000) (K := 256) (N := 512) (val_main_v44 (F := Ideal) x1 x2 x3) x0 x7 x8 x9 := by
  unfold val_main_v51 val_main_v50 val_main_v49 val_main_v48 val_main_v47 val_main_v46 val_main_v45 val_main_call1_v0 val_main_call1_cst
  exact SageLayer.host_eq dot_S100000x256_S256x512_S100000x512_1_0_0_1_n_n rfl rfl rfl rfl rfl rfl rfl rfl _ _ _ _ _ _ _ _

/-- Depth 2, business nodes: the mean over incoming depth-1 user activations, the depth-1 business activations. -/
theorem obiz (x0 : (⟨S100000x256, .f32⟩ : BufTy).Contents (Elt Ideal)) (x1 : (⟨S50000x256, .f32⟩ : BufTy).Contents (Elt Ideal)) (x2 x3 : (⟨S500000, .i32⟩ : BufTy).Contents (Elt Ideal))
    (x4 x5 : (⟨S256x512, .f32⟩ : BufTy).Contents (Elt Ideal)) (x6 : (⟨S512, .f32⟩ : BufTy).Contents (Elt Ideal)) (x7 x8 : (⟨S256x512, .f32⟩ : BufTy).Contents (Elt Ideal)) (x9 : (⟨S512, .f32⟩ : BufTy).Contents (Elt Ideal))
    (x10 x11 : (⟨S512x256, .f32⟩ : BufTy).Contents (Elt Ideal)) (x12 : (⟨S256, .f32⟩ : BufTy).Contents (Elt Ideal)) :
    val_main_v77 (F := Ideal) x0 x1 x2 x3 x4 x5 x6 x7 x8 x9 x10 x11 x12
      = SageLayer.layer (M := 50000) (K := 512) (N := 256) (val_main_v70 (F := Ideal) x0 x1 x2 x3 x7 x8 x9)
          (val_main_v25 (F := Ideal) x0 x1 x2 x3 x4 x5 x6) x10 x11 x12 := by
  unfold val_main_v77 val_main_v76 val_main_v75 val_main_v74 val_main_v73 val_main_v72 val_main_v71 val_main_call2_v0 val_main_call2_cst
  exact SageLayer.host_eq dot_S50000x512_S512x256_S50000x256_1_0_0_1_n_n rfl rfl rfl rfl rfl rfl rfl rfl _ _ _ _ _ _ _ _

/-- Depth 2, user nodes: the mean over incoming depth-1 business activations, the depth-1 user activations. -/
theorem ouser (x0 : (⟨S100000x256, .f32⟩ : BufTy).Contents (Elt Ideal)) (x1 : (⟨S50000x256, .f32⟩ : BufTy).Contents (Elt Ideal)) (x2 x3 : (⟨S500000, .i32⟩ : BufTy).Contents (Elt Ideal))
    (x4 x5 : (⟨S256x512, .f32⟩ : BufTy).Contents (Elt Ideal)) (x6 : (⟨S512, .f32⟩ : BufTy).Contents (Elt Ideal)) (x7 x8 : (⟨S256x512, .f32⟩ : BufTy).Contents (Elt Ideal)) (x9 : (⟨S512, .f32⟩ : BufTy).Contents (Elt Ideal))
    (x13 x14 : (⟨S512x256, .f32⟩ : BufTy).Contents (Elt Ideal)) (x15 : (⟨S256, .f32⟩ : BufTy).Contents (Elt Ideal)) :
    val_main_v103 (F := Ideal) x0 x1 x2 x3 x4 x5 x6 x7 x8 x9 x13 x14 x15
      = SageLayer.layer (M := 100000) (K := 512) (N := 256) (val_main_v96 (F := Ideal) x0 x1 x2 x3 x4 x5 x6)
          (val_main_v51 (F := Ideal) x0 x1 x2 x3 x7 x8 x9) x13 x14 x15 := by
  unfold val_main_v103 val_main_v102 val_main_v101 val_main_v100 val_main_v99 val_main_v98 val_main_v97 val_main_call3_v0 val_main_call3_cst
  exact SageLayer.host_eq dot_S100000x512_S512x256_S100000x256_1_0_0_1_n_n rfl rfl rfl rfl rfl rfl rfl rfl _ _ _ _ _ _ _ _

end Cert.ReferenceIdeal.Layers

end
-- ==== Proof.KernelValue.lean ====
/-
  The tiled program's two results as functions of its arguments.

  Reading the fold of the segments back from a result's buffer: a region's result array holds the layer of the arrays
  the region found (the region lemmas); the arrays a region finds are what the preceding stretch of host operations
  computed from the buffers before it — the neighbourhood mean of the source activations, the weights rounded to the
  short format — or arrays that no segment since the launch (or since the region that produced them) has written.
  Walking the four regions in order, each result is the plain program's stage of the same name, as a function of the
  sixteen arguments: depth-1 activations of the two node types first, then the depth-2 activations built on them.
-/
import proofs.«117407_j56272661512354_1_alg».proof.Proof.Gen.KernelIdeal.Frame
import proofs.«117407_j56272661512354_1_alg».proof.Proof.Region0
import proofs.«117407_j56272661512354_1_alg».proof.Proof.Region1
import proofs.«117407_j56272661512354_1_alg».proof.Proof.Region2
import proofs.«117407_j56272661512354_1_alg».proof.Proof.Region3
import proofs.«117407_j56272661512354_1_alg».proof.Proof.RefLayers
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## After the first region: the arguments as launched, the depth-1 business activations -/

theorem W2_arg0 : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results_simp <;> rfl

theorem W2_arg1 : W2 m ρ c (Proc.devRef .tc main_arg1) = (m ((c : Thread nD τ).loc main_arg1)) := by
  refine ((W2_arr m ρ c 1).trans (((dat0 (V1 m ρ) c).arrAt_in 1 rfl _).trans (A_eq0 (V1 m ρ) c 1))).trans ?_
  show StableHlo.after hostOps0 (W0 m ρ c) (Proc.devRef .tc main_arg1) = _
  after_results_simp <;> rfl

theorem W2_arg2 : W2 m ρ c (Proc.devRef .tc main_arg2) = (m ((c : Thread nD τ).loc main_arg2)) := by
  refine (W2_of_ne m ρ c main_arg2 (by decide)).trans ?_
  show StableHlo.after hostOps0 (W0 m ρ c) (Proc.devRef .tc main_arg2) = _
  after_results_simp <;> rfl

theorem W2_arg3 : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  after_results_simp <;> rfl

theorem W2_arg7 : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp <;> rfl

theorem W2_arg8 : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp <;> rfl

theorem W2_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results_simp <;> rfl

theorem W2_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results_simp <;> rfl

theorem W2_arg11 : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results_simp <;> rfl

theorem W2_arg12 : W2 m ρ c (Proc.devRef .tc main_arg12) = (m ((c : Thread nD τ).loc main_arg12)) := by
  refine (W2_of_ne m ρ c main_arg12 (by decide)).trans ?_
  show StableHlo.after hostOps0 (W0 m ρ c) (Proc.devRef .tc main_arg12) = _
  after_results_simp <;> rfl

theorem W2_arg13 : W2 m ρ c (Proc.devRef .tc main_arg13) = (m ((c : Thread nD τ).loc main_arg13)) := by
  refine (W2_of_ne m ρ c main_arg13 (by decide)).trans ?_
  show StableHlo.after hostOps0 (W0 m ρ c) (Proc.devRef .tc main_arg13) = _
  after_results_simp <;> rfl

theorem W2_arg14 : W2 m ρ c (Proc.devRef .tc main_arg14) = (m ((c : Thread nD τ).loc main_arg14)) := by
  refine (W2_of_ne m ρ c main_arg14 (by decide)).trans ?_
  show StableHlo.after hostOps0 (W0 m ρ c) (Proc.devRef .tc main_arg14) = _
  after_results_simp <;> rfl

theorem W2_arg15 : W2 m ρ c (Proc.devRef .tc main_arg15) = (m ((c : Thread nD τ).loc main_arg15)) := by
  refine (W2_of_ne m ρ c main_arg15 (by decide)).trans ?_
  show StableHlo.after hostOps0 (W0 m ρ c) (Proc.devRef .tc main_arg15) = _
  after_results_simp <;> rfl

set_option maxHeartbeats 4000000 in
/-- The first region's result: the depth-1 business activations. -/
theorem hbiz : W2 m ρ c (Proc.devRef .tc main_v21) = (Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W2_arr m ρ c 5).trans ((Region0.final (V1 m ρ) c).trans ?_)
  have e0 : V1 m ρ c main_v18 = Cert.ReferenceIdeal.Read.val_main_v18 (F := Ideal) (m ((c : Thread nD τ).loc main_arg0)) (m ((c : Thread nD τ).loc main_arg2)) (m ((c : Thread nD τ).loc main_arg3)) := by
    show StableHlo.after hostOps0 (W0 m ρ c) (Proc.devRef .tc main_v18) = _
    after_results_simp
    rfl
  have e1 : V1 m ρ c main_arg1 = (m ((c : Thread nD τ).loc main_arg1)) := by
    show StableHlo.after hostOps0 (W0 m ρ c) (Proc.devRef .tc main_arg1) = _
    after_results_simp <;> rfl
  have e2 : V1 m ρ c main_v19 = (truncf .bf16 (show FVec Ideal S256x512 .f32 from (m ((c : Thread nD τ).loc main_arg4))) bitsLt_bf16_f32 : FVec Ideal S256x512 .bf16) := by
    show StableHlo.after hostOps0 (W0 m ρ c) (Proc.devRef .tc main_v19) = _; after_results_simp <;> rfl
  have e3 : V1 m ρ c main_v20 = (truncf .bf16 (show FVec Ideal S256x512 .f32 from (m ((c : Thread nD τ).loc main_arg5))) bitsLt_bf16_f32 : FVec Ideal S256x512 .bf16) := by
    show StableHlo.after hostOps0 (W0 m ρ c) (Proc.devRef .tc main_v20) = _; after_results_simp <;> rfl
  have e4 : V1 m ρ c main_arg6 = (m ((c : Thread nD τ).loc main_arg6)) := by
    show StableHlo.after hostOps0 (W0 m ρ c) (Proc.devRef .tc main_arg6) = _; after_results_simp <;> rfl
  rw [e0, e1, e2, e3, e4]
  exact (SageLayer.layer_truncf _ _ _ _ _ _).trans (Cert.ReferenceIdeal.Layers.hbiz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

/-! ## After the second region: also the depth-1 user activations -/

theorem W4_arg2 : W4 m ρ c (Proc.devRef .tc main_arg2) = (m ((c : Thread nD τ).loc main_arg2)) := by
  refine (W4_of_ne m ρ c main_arg2 (by decide)).trans ?_
  show StableHlo.after hostOps1 (W2 m ρ c) (Proc.devRef .tc main_arg2) = _
  after_results_simp
  exact W2_arg2 m ρ c

theorem W4_arg3 : W4 m ρ c (Proc.devRef .tc main_arg3) = (m ((c : Thread nD τ).loc main_arg3)) := by
  refine (W4_of_ne m ρ c main_arg3 (by decide)).trans ?_
  show StableHlo.after hostOps1 (W2 m ρ c) (Proc.devRef .tc main_arg3) = _
  after_results_simp
  exact W2_arg3 m ρ c

theorem W4_arg10 : W4 m ρ c (Proc.devRef .tc main_arg10) = (m ((c : Thread nD τ).loc main_arg10)) := by
  refine (W4_of_ne m ρ c main_arg10 (by decide)).trans ?_
  show StableHlo.after hostOps1 (W2 m ρ c) (Proc.devRef .tc main_arg10) = _
  after_results_simp
  exact W2_arg10 m ρ c

theorem W4_arg11 : W4 m ρ c (Proc.devRef .tc main_arg11) = (m ((c : Thread nD τ).loc main_arg11)) := by
  refine (W4_of_ne m ρ c main_arg11 (by decide)).trans ?_
  show StableHlo.after hostOps1 (W2 m ρ c) (Proc.devRef .tc main_arg11) = _
  after_results_simp
  exact W2_arg11 m ρ c

theorem W4_arg12 : W4 m ρ c (Proc.devRef .tc main_arg12) = (m ((c : Thread nD τ).loc main_arg12)) := by
  refine (W4_of_ne m ρ c main_arg12 (by decide)).trans ?_
  show StableHlo.after hostOps1 (W2 m ρ c) (Proc.devRef .tc main_arg12) = _
  after_results_simp
  exact W2_arg12 m ρ c

theorem W4_arg13 : W4 m ρ c (Proc.devRef .tc main_arg13) = (m ((c : Thread nD τ).loc main_arg13)) := by
  refine (W4_of_ne m ρ c main_arg13 (by decide)).trans ?_
  show StableHlo.after hostOps1 (W2 m ρ c) (Proc.devRef .tc main_arg13) = _
  after_results_simp
  exact W2_arg13 m ρ c

theorem W4_arg14 : W4 m ρ c (Proc.devRef .tc main_arg14) = (m ((c : Thread nD τ).loc main_arg14)) := by
  refine (W4_of_ne m ρ c main_arg14 (by decide)).trans ?_
  show StableHlo.after hostOps1 (W2 m ρ c) (Proc.devRef .tc main_arg14) = _
  after_results_simp
  exact W2_arg14 m ρ c

theorem W4_arg15 : W4 m ρ c (Proc.devRef .tc main_arg15) = (m ((c : Thread nD τ).loc main_arg15)) := by
  refine (W4_of_ne m ρ c main_arg15 (by decide)).trans ?_
  show StableHlo.after hostOps1 (W2 m ρ c) (Proc.devRef .tc main_arg15) = _
  after_results_simp
  exact W2_arg15 m ρ c

theorem W4_v21 : W4 m ρ c (Proc.devRef .tc main_v21) = (Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W4_of_ne m ρ c main_v21 (by decide)).trans ?_
  show StableHlo.after hostOps1 (W2 m ρ c) (Proc.devRef .tc main_v21) = _
  after_results_simp
  exact hbiz m ρ c

set_option maxHeartbeats 4000000 in
/-- The second region's result: the depth-1 user activations. -/
theorem huser : W4 m ρ c (Proc.devRef .tc main_v43) = (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) := by
  refine (W4_arr m ρ c 5).trans ((Region1.final (V3 m ρ) c).trans ?_)
  have e0 : V3 m ρ c main_v40 = Cert.ReferenceIdeal.Read.val_main_v44 (F := Ideal) (m ((c : Thread nD τ).loc main_arg1)) (m ((c : Thread nD τ).loc main_arg2)) (m ((c : Thread nD τ).loc main_arg3)) := by
    show StableHlo.after hostOps1 (W2 m ρ c) (Proc.devRef .tc main_v40) = _
    after_results_simp
    rw [W2_arg1 m ρ c, W2_arg2 m ρ c, W2_arg3 m ρ c]
    rfl
  have e1 : V3 m ρ c main_arg0 = (m ((c : Thread nD τ).loc main_arg0)) := by
    show StableHlo.after hostOps1 (W2 m ρ c) (Proc.devRef .tc main_arg0) = _
    after_results_simp; exact W2_arg0 m ρ c
  have e2 : V3 m ρ c main_v41 = (truncf .bf16 (show FVec Ideal S256x512 .f32 from (m ((c : Thread nD τ).loc main_arg7))) bitsLt_bf16_f32 : FVec Ideal S256x512 .bf16) := by
    show StableHlo.after hostOps1 (W2 m ρ c) (Proc.devRef .tc main_v41) = _; after_results_simp; rw [W2_arg7 m ρ c]
  have e3 : V3 m ρ c main_v42 = (truncf .bf16 (show FVec Ideal S256x512 .f32 from (m ((c : Thread nD τ).loc main_arg8))) bitsLt_bf16_f32 : FVec Ideal S256x512 .bf16) := by
    show StableHlo.after hostOps1 (W2 m ρ c) (Proc.devRef .tc main_v42) = _; after_results_simp; rw [W2_arg8 m ρ c]
  have e4 : V3 m ρ c main_arg9 = (m ((c : Thread nD τ).loc main_arg9)) := by
    show StableHlo.after hostOps1 (W2 m ρ c) (Proc.devRef .tc main_arg9) = _; after_results_simp; exact W2_arg9 m ρ c
  rw [e0, e1, e2, e3, e4]
  exact (SageLayer.layer_truncf _ _ _ _ _ _).trans (Cert.ReferenceIdeal.Layers.huser (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))).symm

/-! ## After the third region: also the depth-2 business activations -/

theorem W6_arg2 : W6 m ρ c (Proc.devRef .tc main_arg2) = (m ((c : Thread nD τ).loc main_arg2)) := by
  refine (W6_of_ne m ρ c main_arg2 (by decide)).trans ?_
  show StableHlo.after hostOps2 (W4 m ρ c) (Proc.devRef .tc main_arg2) = _
  after_results_simp
  exact W4_arg2 m ρ c

theorem W6_arg3 : W6 m ρ c (Proc.devRef .tc main_arg3) = (m ((c : Thread nD τ).loc main_arg3)) := by
  refine (W6_of_ne m ρ c main_arg3 (by decide)).trans ?_
  show StableHlo.after hostOps2 (W4 m ρ c) (Proc.devRef .tc main_arg3) = _
  after_results_simp
  exact W4_arg3 m ρ c

theorem W6_arg13 : W6 m ρ c (Proc.devRef .tc main_arg13) = (m ((c : Thread nD τ).loc main_arg13)) := by
  refine (W6_of_ne m ρ c main_arg13 (by decide)).trans ?_
  show StableHlo.after hostOps2 (W4 m ρ c) (Proc.devRef .tc main_arg13) = _
  after_results_simp
  exact W4_arg13 m ρ c

theorem W6_arg14 : W6 m ρ c (Proc.devRef .tc main_arg14) = (m ((c : Thread nD τ).loc main_arg14)) := by
  refine (W6_of_ne m ρ c main_arg14 (by decide)).trans ?_
  show StableHlo.after hostOps2 (W4 m ρ c) (Proc.devRef .tc main_arg14) = _
  after_results_simp
  exact W4_arg14 m ρ c

theorem W6_arg15 : W6 m ρ c (Proc.devRef .tc main_arg15) = (m ((c : Thread nD τ).loc main_arg15)) := by
  refine (W6_of_ne m ρ c main_arg15 (by decide)).trans ?_
  show StableHlo.after hostOps2 (W4 m ρ c) (Proc.devRef .tc main_arg15) = _
  after_results_simp
  exact W4_arg15 m ρ c

theorem W6_v21 : W6 m ρ c (Proc.devRef .tc main_v21) = (Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine ((W6_arr m ρ c 1).trans (((dat2 (V5 m ρ) c).arrAt_in 1 rfl _).trans (A_eq2 (V5 m ρ) c 1))).trans ?_
  show StableHlo.after hostOps2 (W4 m ρ c) (Proc.devRef .tc main_v21) = _
  after_results_simp
  exact W4_v21 m ρ c

theorem W6_v43 : W6 m ρ c (Proc.devRef .tc main_v43) = (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) := by
  refine (W6_of_ne m ρ c main_v43 (by decide)).trans ?_
  show StableHlo.after hostOps2 (W4 m ρ c) (Proc.devRef .tc main_v43) = _
  after_results_simp
  exact huser m ρ c

set_option maxHeartbeats 4000000 in
/-- The third region's result: the depth-2 business activations. -/
theorem obiz6 : W6 m ρ c (Proc.devRef .tc main_v65) = (Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W6_arr m ρ c 5).trans ((Region2.final (V5 m ρ) c).trans ?_)
  have e0 : V5 m ρ c main_v62 = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
    show StableHlo.after hostOps2 (W4 m ρ c) (Proc.devRef .tc main_v62) = _
    after_results_simp
    rw [huser m ρ c, W4_arg2 m ρ c, W4_arg3 m ρ c]
    rfl
  have e1 : V5 m ρ c main_v21 = (Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
    show StableHlo.after hostOps2 (W4 m ρ c) (Proc.devRef .tc main_v21) = _
    after_results_simp; exact W4_v21 m ρ c
  have e2 : V5 m ρ c main_v63 = (truncf .bf16 (show FVec Ideal S512x256 .f32 from (m ((c : Thread nD τ).loc main_arg10))) bitsLt_bf16_f32 : FVec Ideal S512x256 .bf16) := by
    show StableHlo.after hostOps2 (W4 m ρ c) (Proc.devRef .tc main_v63) = _; after_results_simp; rw [W4_arg10 m ρ c]
  have e3 : V5 m ρ c main_v64 = (truncf .bf16 (show FVec Ideal S512x256 .f32 from (m ((c : Thread nD τ).loc main_arg11))) bitsLt_bf16_f32 : FVec Ideal S512x256 .bf16) := by
    show StableHlo.after hostOps2 (W4 m ρ c) (Proc.devRef .tc main_v64) = _; after_results_simp; rw [W4_arg11 m ρ c]
  have e4 : V5 m ρ c main_arg12 = (m ((c : Thread nD τ).loc main_arg12)) := by
    show StableHlo.after hostOps2 (W4 m ρ c) (Proc.devRef .tc main_arg12) = _; after_results_simp; exact W4_arg12 m ρ c
  rw [e0, e1, e2, e3, e4]
  exact (SageLayer.layer_truncf _ _ _ _ _ _).trans (Cert.ReferenceIdeal.Layers.obiz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

/-! ## After the fourth region: the two results -/

set_option maxHeartbeats 4000000 in
/-- The fourth region's result, the first result of the program: the depth-2 user activations. -/
theorem ouser : W8 m ρ c (Proc.devRef .tc main_v87) = (Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))) := by
  refine (W8_arr m ρ c 5).trans ((Region3.final (V7 m ρ) c).trans ?_)
  have e0 : V7 m ρ c main_v84 = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    show StableHlo.after hostOps3 (W6 m ρ c) (Proc.devRef .tc main_v84) = _
    after_results_simp
    rw [W6_v21 m ρ c, W6_arg3 m ρ c, W6_arg2 m ρ c]
    rfl
  have e1 : V7 m ρ c main_v43 = (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) := by
    show StableHlo.after hostOps3 (W6 m ρ c) (Proc.devRef .tc main_v43) = _
    after_results_simp; exact W6_v43 m ρ c
  have e2 : V7 m ρ c main_v85 = (truncf .bf16 (show FVec Ideal S512x256 .f32 from (m ((c : Thread nD τ).loc main_arg13))) bitsLt_bf16_f32 : FVec Ideal S512x256 .bf16) := by
    show StableHlo.after hostOps3 (W6 m ρ c) (Proc.devRef .tc main_v85) = _; after_results_simp; rw [W6_arg13 m ρ c]
  have e3 : V7 m ρ c main_v86 = (truncf .bf16 (show FVec Ideal S512x256 .f32 from (m ((c : Thread nD τ).loc main_arg14))) bitsLt_bf16_f32 : FVec Ideal S512x256 .bf16) := by
    show StableHlo.after hostOps3 (W6 m ρ c) (Proc.devRef .tc main_v86) = _; after_results_simp; rw [W6_arg14 m ρ c]
  have e4 : V7 m ρ c main_arg15 = (m ((c : Thread nD τ).loc main_arg15)) := by
    show StableHlo.after hostOps3 (W6 m ρ c) (Proc.devRef .tc main_arg15) = _; after_results_simp; exact W6_arg15 m ρ c
  rw [e0, e1, e2, e3, e4]
  exact (SageLayer.layer_truncf _ _ _ _ _ _).trans (Cert.ReferenceIdeal.Layers.ouser (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15))).symm

/-- The second result of the program: the third region's result, untouched by the last stretch and the last region. -/
theorem obiz : W8 m ρ c (Proc.devRef .tc main_v65) = (Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W8_of_ne m ρ c main_v65 (by decide)).trans ?_
  show StableHlo.after hostOps3 (W6 m ρ c) (Proc.devRef .tc main_v65) = _
  after_results_simp
  exact obiz6 m ρ c

/-! ## The two results, named -/

/-- The program's first result as a function of its arguments: the depth-2 user activations. -/
def result0 : Buf (Elt Ideal) ((c : Thread nD τ).loc main_v87) := (Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg13)) (m ((c : Thread nD τ).loc main_arg14)) (m ((c : Thread nD τ).loc main_arg15)))

/-- The program's second result as a function of its arguments: the depth-2 business activations. -/
def result1 : Buf (Elt Ideal) ((c : Thread nD τ).loc main_v65) := (Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))

theorem result0_eq : W8 m ρ c (Proc.devRef .tc main_v87) = result0 m c := ouser m ρ c

theorem result1_eq : W8 m ρ c (Proc.devRef .tc main_v65) = result1 m c := obiz m ρ c

end Cert.KernelIdeal.Chain

end
-- ==== Proof.lean ====
/-
  A two-layer graph network over two node types (users and businesses joined by one edge list), tiled against plain.

  Each of the four layers (two node types, two depths) takes, for every destination node, the mean of its incoming
  neighbours' features — a gather along the edge list, a scatter-add into the destination rows, a division by the
  in-degree clamped below by one — and the node's own features, and returns
      max( mean · W_l  +  own · W_r  +  b ,  0 ).
  The mean is computed by the same host operations in both programs. The tiled program computes the rest in blocks of
  2000 destination rows (both products into zero accumulators, with operands rounded to a shorter float format, then
  their sum, then the bias, then the clamp); the plain program computes it on whole arrays, adding the bias between the
  two products. On the extended reals a change of float format is the identity, a row of a product depends only on the
  same row of the left operand, and the two orders of adding three summands agree by commutativity and associativity of
  addition, which hold at the infinities too: so the two programs' results are one function of the sixteen arguments,
  and the hypothesis that the inputs are finite is never opened. Depth 2 consumes depth 1's results on both sides, so
  the equality propagates layer by layer.

  The frames of the two tiled programs are the generated ones; the plain program's frame is its generated run with the
  results dropped; nothing was rewritten by the idealization, so there is nothing to preserve.
-/
import proofs.«117407_j56272661512354_1_alg».proof.Defs
import proofs.«117407_j56272661512354_1_alg».proof.Proof.Gen.Kernel
import proofs.«117407_j56272661512354_1_alg».proof.Proof.Gen.Kernel.Skeleton
import proofs.«117407_j56272661512354_1_alg».proof.Proof.Gen.Kernel.Launch
import proofs.«117407_j56272661512354_1_alg».proof.Proof.Gen.Kernel.Points
import proofs.«117407_j56272661512354_1_alg».proof.Proof.Gen.Kernel.Frame
import proofs.«117407_j56272661512354_1_alg».proof.Proof.Gen.KernelIdeal
import proofs.«117407_j56272661512354_1_alg».proof.Proof.Gen.KernelIdeal.Skeleton
import proofs.«117407_j56272661512354_1_alg».proof.Proof.Gen.KernelIdeal.Launch
import proofs.«117407_j56272661512354_1_alg».proof.Proof.Gen.KernelIdeal.Points
import proofs.«117407_j56272661512354_1_alg».proof.Proof.Gen.KernelIdeal.Frame
import proofs.«117407_j56272661512354_1_alg».proof.Proof.Gen.ReferenceIdeal
import proofs.«117407_j56272661512354_1_alg».proof.Proof.Gen.Pre_finite_inputs
import proofs.«117407_j56272661512354_1_alg».proof.Proof.Gen.ReferenceIdeal.Run
import proofs.«117407_j56272661512354_1_alg».proof.Proof.Gen.ReferenceIdeal.Read
import proofs.«117407_j56272661512354_1_alg».proof.Proof.KernelRun
import proofs.«117407_j56272661512354_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The tiled program ends with its two results at the depth-2 activations of the two node types, as functions of the
    arguments; the plain program ends with its two results at the same functions of ITS arguments, which agree. -/
theorem algebraic : Cert.algebraic_KernelIdeal_ReferenceIdeal := by
  intro m ρ m' ρ' _ hagree
  refine ⟨Cert.KernelIdeal.Chain.result0 m, Cert.KernelIdeal.Chain.result1 m, ?_, ?_⟩
  · exact (θ_run Cert.KernelIdeal.defs _ _).mono
      (fun r h c => ⟨(h c).1.trans (Cert.KernelIdeal.Chain.result0_eq m ρ c), (h c).2.1.trans (Cert.KernelIdeal.Chain.result1_eq m ρ c), (h c).2.2⟩)
      (Cert.KernelIdeal.Run.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      rw [Cert.ReferenceIdeal.Read.val_main_v103_eq, h0, h1, h2, h3, h4, h5, h6, h7, h8, h9, h13, h14, h15]
      rfl
    · obtain ⟨h0, h1, h2, h3, h4, h5, h6, h7, h8, h9, h10, h11, h12, h13, h14, h15⟩ := hagree c
      rw [Cert.ReferenceIdeal.Read.val_main_v77_eq, h0, h1, h2, h3, h4, h5, h6, h7, h8, h9, h10, h11, h12]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
